-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v41)) (v4 : (c : Dev Cert.KernelIdeal.nD) → Buf (Elt Ideal) ((c.tc : Thread Cert.KernelIdeal.nD Cert.KernelIdeal.τ).loc Cert.KernelIdeal.main_cst_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v41) = v3 c
          ∧ r.2.mem ((c.tc : Thread Cert.KernelIdeal.nD Cert.KernelIdeal.τ).loc Cert.KernelIdeal.main_cst_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_cst_12) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x3200000 : Shape := ⟨2, ![2, 3200000]⟩
abbrev S3200000 : Shape := ⟨1, ![3200000]⟩
abbrev S500x32 : Shape := ⟨2, ![500, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S500x32 : S_.BroadcastsInDim S500x32 (![] : Fin 0 → Fin S500x32.rank)
  reducesTo_S500x32_S_d0_1 : S500x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S32x16 .f32) (main_arg6 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x500 .f32) (main_arg1 : IVec S2x3200000 32) (main_arg2 : FVec F S3200000 .f32) (main_arg3 : FVec F S500x32 .f32) (main_arg4 : FVec F S32 .f32) (main_arg5 : FVec F S32x16 .f32) (main_arg6 : FVec F S16 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S500x32 .f32 := Host.absf main_arg3
  let main_cst_2 : FVec F S_ .f32 := constant S_ .f32 0x7F800000#32
  let main_v10 : FVec F S500x32 .f32 := broadcastInDim S500x32 ![] bcast_S_S500x32 main_cst_2
  let main_v11 : IVec S500x32 1 := cmpf .olt main_v9 main_v10
  let main_c_3 : IVec S_ 1 := constantI S_ 1 1#1
  let main_v12 : IVec S_ 1 := (fun x v => Host.reduce IntOp.andi x v reducesTo_S500x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S100000x500 : Shape := ⟨2, ![100000, 500]⟩
abbrev S2x3200000 : Shape := ⟨2, ![2, 3200000]⟩
abbrev S3200000 : Shape := ⟨1, ![3200000]⟩
abbrev S500x32 : Shape := ⟨2, ![500, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S100000x32 : Shape := ⟨2, ![100000, 32]⟩
abbrev S2000x500 : Shape := ⟨2, ![2000, 500]⟩
abbrev S2000x32 : Shape := ⟨2, ![2000, 32]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S100000x1 : Shape := ⟨2, ![100000, 1]⟩
abbrev S2000x1 : Shape := ⟨2, ![2000, 1]⟩
abbrev S2000x16 : Shape := ⟨2, ![2000, 16]⟩
abbrev S2000 : Shape := ⟨1, ![2000]⟩
abbrev S100000 : Shape := ⟨1, ![100000]⟩
abbrev S100000x16 : Shape := ⟨2, ![100000, 16]⟩
abbrev S3200000x16 : Shape := ⟨2, ![3200000, 16]⟩
abbrev S1x16 : Shape := ⟨2, ![1, 16]⟩
abbrev S2000x8 : Shape := ⟨2, ![2000, 8]⟩

abbrev nBuf : Space → Nat
  | .hbm => 56
  | .vmem => 18
  | .smem => 0
  | _ => 0

abbrev bufTy : (tb : Table) → Fin (tcTables nBuf tb) → BufTy
  | .hbm, ⟨0, _⟩ => ⟨S100000x500, .f32⟩
  | .hbm, ⟨1, _⟩ => ⟨S2x3200000, .i32⟩
  | .hbm, ⟨2, _⟩ => ⟨S3200000, .f32⟩
  | .hbm, ⟨3, _⟩ => ⟨S500x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000x32, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x32, .f32⟩
  | .hbm, ⟨21, _⟩ => ⟨S3200000x1, .f32⟩
  | .hbm, ⟨22, _⟩ => ⟨S3200000x32, .f32⟩
  | .hbm, ⟨23, _⟩ => ⟨S3200000x32, .f32⟩
  | .hbm, ⟨24, _⟩ => ⟨S_, .f32⟩
  | .hbm, ⟨25, _⟩ => ⟨S100000x32, .f32⟩
  | .hbm, ⟨26, _⟩ => ⟨S3200000x1, .i32⟩
  | .hbm, ⟨27, _⟩ => ⟨S100000x32, .f32⟩
  | .hbm, ⟨28, _⟩ => ⟨S1x32, .f32⟩
  | .hbm, ⟨29, _⟩ => ⟨S100000x32, .f32⟩
  | .hbm, ⟨30, _⟩ => ⟨S100000x32, .f32⟩
  | .hbm, ⟨31, _⟩ => ⟨S100000x1, .f32⟩
  | .hbm, ⟨32, _⟩ => ⟨S100000, .f32⟩
  | .hbm, ⟨33, _⟩ => ⟨S100000x16, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x16, .f32⟩
  | .hbm, ⟨43, _⟩ => ⟨S3200000x1, .f32⟩
  | .hbm, ⟨44, _⟩ => ⟨S3200000x16, .f32⟩
  | .hbm, ⟨45, _⟩ => ⟨S3200000x16, .f32⟩
  | .hbm, ⟨46, _⟩ => ⟨S_, .f32⟩
  | .hbm, ⟨47, _⟩ => ⟨S100000x16, .f32⟩
  | .hbm, ⟨48, _⟩ => ⟨S3200000x1, .i32⟩
  | .hbm, ⟨49, _⟩ => ⟨S100000x16, .f32⟩
  | .hbm, ⟨50, _⟩ => ⟨S1x16, .f32⟩
  | .hbm, ⟨51, _⟩ => ⟨S100000x16, .f32⟩
  | .hbm, ⟨52, _⟩ => ⟨S100000x16, .f32⟩
  | .hbm, ⟨53, _⟩ => ⟨S100000x1, .f32⟩
  | .hbm, ⟨54, _⟩ => ⟨S100000, .f32⟩
  | .hbm, ⟨55, _⟩ => ⟨S_, .f32⟩
  | .local _ .vmem, ⟨0, _⟩ => ⟨S2000x500, .f32⟩
  | .local _ .vmem, ⟨1, _⟩ => ⟨S2000x500, .f32⟩
  | .local _ .vmem, ⟨2, _⟩ => ⟨S500x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S2000x1, .f32⟩
  | .local _ .vmem, ⟨8, _⟩ => ⟨S2000x1, .f32⟩
  | .local _ .vmem, ⟨9, _⟩ => ⟨S2000x32, .f32⟩
  | .local _ .vmem, ⟨10, _⟩ => ⟨S2000x32, .f32⟩
  | .local _ .vmem, ⟨11, _⟩ => ⟨S32x16, .f32⟩
  | .local _ .vmem, ⟨12, _⟩ => ⟨S2000x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S2000x1, .f32⟩
  | .local _ .vmem, ⟨17, _⟩ => ⟨S2000x1, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x32_S500x32_0_0 : ∀ a, (![0, 0] : Fin 2 → Nat) a + S500x32.size a ≤ S500x32.size a
  h_S500x32 : 0 < S500x32.numel
  inb_S2000x32_S2000x32_0_0 : ∀ a, (![0, 0] : Fin 2 → Nat) a + S2000x32.size a ≤ S2000x32.size a
  h_S2000x32 : 0 < S2000x32.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S2000x32_S2000x32 : S2000x32.ShapeCasts S2000x32
  slices_S2000x32_o0_0_S2000x16 : S2000x32.Slices ![0, 0] S2000x16
  slices_S2000x32_o0_16_S2000x16 : S2000x32.Slices ![0, 16] S2000x16
  reduces_S2000x16_S2000 : S2000x16.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  inb_S32x16_S32x16_0_0 : ∀ a, (![0, 0] : Fin 2 → Nat) a + S32x16.size a ≤ S32x16.size a
  h_S32x16 : 0 < S32x16.numel
  inb_S2000x16_S2000x16_0_0 : ∀ a, (![0, 0] : Fin 2 → Nat) a + S2000x16.size a ≤ S2000x16.size a
  h_S2000x16 : 0 < S2000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  slices_S2000x16_o0_0_S2000x8 : S2000x16.Slices ![0, 0] S2000x8
  slices_S2000x16_o0_8_S2000x8 : S2000x16.Slices ![0, 8] S2000x8
  reduces_S2000x8_S2000 : S2000x8.Reduces [1] S2000
  dot_S2000x500_S500x32_S2000x32_1_0_0_1_n_n_wf : DotDims.WF S2000x500 S500x32 S2000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S2000x32_S32x16_S2000x16_1_0_0_1_n_n_wf : DotDims.WF S2000x32 S32x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x32.size a ≤ S500x32.size a
  hwx0_1 : ∀ i : grid0.Coords, EltTy.bits .f32 = 32 ∨ (Rect.block (s := S500x32) S500x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)

variable [Facts₀]

def dot_S2000x500_S500x32_S2000x32_1_0_0_1_n_n : DotDims S2000x500 S500x32 S2000x32 where
  lhsContracting := [1]
  rhsContracting := [0]
  lhsNonContracting := [0]
  rhsNonContracting := [1]
  lhsBatch := []
  rhsBatch := []
  wf := dot_S2000x500_S500x32_S2000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S500x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v20) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v39) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S2000x1.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x500 : Shape := ⟨2, ![100000, 500]⟩
abbrev S2x3200000 : Shape := ⟨2, ![2, 3200000]⟩
abbrev S3200000 : Shape := ⟨1, ![3200000]⟩
abbrev S500x32 : Shape := ⟨2, ![500, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S100000x32 : Shape := ⟨2, ![100000, 32]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S100000x16 : Shape := ⟨2, ![100000, 16]⟩
abbrev S100000 : Shape := ⟨1, ![100000]⟩
abbrev S3200000x16 : Shape := ⟨2, ![3200000, 16]⟩
abbrev S1x16 : Shape := ⟨2, ![1, 16]⟩
abbrev S100000x8 : Shape := ⟨2, ![100000, 8]⟩

abbrev nBuf : Space → Nat
  | .hbm => 118
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S2x3200000, .i32⟩
  | .hbm, ⟨2, _⟩ => ⟨S3200000, .f32⟩
  | .hbm, ⟨3, _⟩ => ⟨S500x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000x32, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x32, .f32⟩
  | .hbm, ⟨21, _⟩ => ⟨S3200000x1, .f32⟩
  | .hbm, ⟨22, _⟩ => ⟨S3200000x32, .f32⟩
  | .hbm, ⟨23, _⟩ => ⟨S3200000x32, .f32⟩
  | .hbm, ⟨24, _⟩ => ⟨S_, .f32⟩
  | .hbm, ⟨25, _⟩ => ⟨S100000x32, .f32⟩
  | .hbm, ⟨26, _⟩ => ⟨S3200000x1, .i32⟩
  | .hbm, ⟨27, _⟩ => ⟨S100000x32, .f32⟩
  | .hbm, ⟨28, _⟩ => ⟨S1x32, .f32⟩
  | .hbm, ⟨29, _⟩ => ⟨S100000x32, .f32⟩
  | .hbm, ⟨30, _⟩ => ⟨S100000x32, .f32⟩
  | .hbm, ⟨31, _⟩ => ⟨S100000x16, .f32⟩
  | .hbm, ⟨32, _⟩ => ⟨S100000x16, .f32⟩
  | .hbm, ⟨33, _⟩ => ⟨S_, .f32⟩
  | .hbm, ⟨34, _⟩ => ⟨S100000x16, .f32⟩
  | .hbm, ⟨35, _⟩ => ⟨S100000x16, .f32⟩
  | .hbm, ⟨36, _⟩ => ⟨S100000x16, .f32⟩
  | .hbm, ⟨37, _⟩ => ⟨S100000x16, .f32⟩
  | .hbm, ⟨38, _⟩ => ⟨S100000x16, .i1⟩
  | .hbm, ⟨39, _⟩ => ⟨S100000x16, .f32⟩
  | .hbm, ⟨40, _⟩ => ⟨S100000x16, .f32⟩
  | .hbm, ⟨41, _⟩ => ⟨S100000x16, .f32⟩
  | .hbm, ⟨42, _⟩ => ⟨S100000x16, .f32⟩
  | .hbm, ⟨43, _⟩ => ⟨S100000x16, .f32⟩
  | .hbm, ⟨44, _⟩ => ⟨S100000x16, .f32⟩
  | .hbm, ⟨45, _⟩ => ⟨S100000x16, .f32⟩
  | .hbm, ⟨46, _⟩ => ⟨S100000x16, .f32⟩
  | .hbm, ⟨47, _⟩ => ⟨S_, .f32⟩
  | .hbm, ⟨48, _⟩ => ⟨S100000x16, .f32⟩
  | .hbm, ⟨49, _⟩ => ⟨S100000x16, .f32⟩
  | .hbm, ⟨50, _⟩ => ⟨S100000x16, .f32⟩
  | .hbm, ⟨51, _⟩ => ⟨S100000x16, .f32⟩
  | .hbm, ⟨52, _⟩ => ⟨S100000x16, .f32⟩
  | .hbm, ⟨53, _⟩ => ⟨S100000x16, .f32⟩
  | .hbm, ⟨54, _⟩ => ⟨S100000x16, .f32⟩
  | .hbm, ⟨55, _⟩ => ⟨S_, .f32⟩
  | .hbm, ⟨56, _⟩ => ⟨S100000x16, .f32⟩
  | .hbm, ⟨57, _⟩ => ⟨S100000x16, .f32⟩
  | .hbm, ⟨58, _⟩ => ⟨S_, .f32⟩
  | .hbm, ⟨59, _⟩ => ⟨S100000x16, .f32⟩
  | .hbm, ⟨60, _⟩ => ⟨S100000x16, .f32⟩
  | .hbm, ⟨61, _⟩ => ⟨S100000x16, .f32⟩
  | .hbm, ⟨62, _⟩ => ⟨S_, .f32⟩
  | .hbm, ⟨63, _⟩ => ⟨S100000, .f32⟩
  | .hbm, ⟨64, _⟩ => ⟨S100000x16, .f32⟩
  | .hbm, ⟨65, _⟩ => ⟨S_, .i32⟩
  | .hbm, ⟨66, _⟩ => ⟨S3200000, .i32⟩
  | .hbm, ⟨67, _⟩ => ⟨S3200000, .i1⟩
  | .hbm, ⟨68, _⟩ => ⟨S_, .i32⟩
  | .hbm, ⟨69, _⟩ => ⟨S3200000, .i32⟩
  | .hbm, ⟨70, _⟩ => ⟨S3200000, .i32⟩
  | .hbm, ⟨71, _⟩ => ⟨S3200000, .i32⟩
  | .hbm, ⟨72, _⟩ => ⟨S3200000x1, .i32⟩
  | .hbm, ⟨73, _⟩ => ⟨S3200000x16, .f32⟩
  | .hbm, ⟨74, _⟩ => ⟨S3200000x1, .f32⟩
  | .hbm, ⟨75, _⟩ => ⟨S3200000x16, .f32⟩
  | .hbm, ⟨76, _⟩ => ⟨S3200000x16, .f32⟩
  | .hbm, ⟨77, _⟩ => ⟨S_, .f32⟩
  | .hbm, ⟨78, _⟩ => ⟨S100000x16, .f32⟩
  | .hbm, ⟨79, _⟩ => ⟨S3200000x1, .i32⟩
  | .hbm, ⟨80, _⟩ => ⟨S100000x16, .f32⟩
  | .hbm, ⟨81, _⟩ => ⟨S1x16, .f32⟩
  | .hbm, ⟨82, _⟩ => ⟨S100000x16, .f32⟩
  | .hbm, ⟨83, _⟩ => ⟨S100000x16, .f32⟩
  | .hbm, ⟨84, _⟩ => ⟨S100000x8, .f32⟩
  | .hbm, ⟨85, _⟩ => ⟨S100000x8, .f32⟩
  | .hbm, ⟨86, _⟩ => ⟨S_, .f32⟩
  | .hbm, ⟨87, _⟩ => ⟨S100000x8, .f32⟩
  | .hbm, ⟨88, _⟩ => ⟨S100000x8, .f32⟩
  | .hbm, ⟨89, _⟩ => ⟨S100000x8, .f32⟩
  | .hbm, ⟨90, _⟩ => ⟨S100000x8, .f32⟩
  | .hbm, ⟨91, _⟩ => ⟨S100000x8, .i1⟩
  | .hbm, ⟨92, _⟩ => ⟨S100000x8, .f32⟩
  | .hbm, ⟨93, _⟩ => ⟨S100000x8, .f32⟩
  | .hbm, ⟨94, _⟩ => ⟨S100000x8, .f32⟩
  | .hbm, ⟨95, _⟩ => ⟨S100000x8, .f32⟩
  | .hbm, ⟨96, _⟩ => ⟨S100000x8, .f32⟩
  | .hbm, ⟨97, _⟩ => ⟨S100000x8, .f32⟩
  | .hbm, ⟨98, _⟩ => ⟨S100000x8, .f32⟩
  | .hbm, ⟨99, _⟩ => ⟨S100000x8, .f32⟩
  | .hbm, ⟨100, _⟩ => ⟨S_, .f32⟩
  | .hbm, ⟨101, _⟩ => ⟨S100000x8, .f32⟩
  | .hbm, ⟨102, _⟩ => ⟨S100000x8, .f32⟩
  | .hbm, ⟨103, _⟩ => ⟨S100000x8, .f32⟩
  | .hbm, ⟨104, _⟩ => ⟨S100000x8, .f32⟩
  | .hbm, ⟨105, _⟩ => ⟨S100000x8, .f32⟩
  | .hbm, ⟨106, _⟩ => ⟨S100000x8, .f32⟩
  | .hbm, ⟨107, _⟩ => ⟨S100000x8, .f32⟩
  | .hbm, ⟨108, _⟩ => ⟨S_, .f32⟩
  | .hbm, ⟨109, _⟩ => ⟨S100000x8, .f32⟩
  | .hbm, ⟨110, _⟩ => ⟨S100000x8, .f32⟩
  | .hbm, ⟨111, _⟩ => ⟨S_, .f32⟩
  | .hbm, ⟨112, _⟩ => ⟨S100000x8, .f32⟩
  | .hbm, ⟨113, _⟩ => ⟨S100000x8, .f32⟩
  | .hbm, ⟨114, _⟩ => ⟨S100000x8, .f32⟩
  | .hbm, ⟨115, _⟩ => ⟨S_, .f32⟩
  | .hbm, ⟨116, _⟩ => ⟨S100000, .f32⟩
  | .hbm, ⟨117, _⟩ => ⟨S_, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_2 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_c_5 : Ref sig .tc := ⟨.hbm, 65, rfl⟩
abbrev main_v38 : Ref sig .tc := ⟨.hbm, 66, rfl⟩
abbrev main_v39 : Ref sig .tc := ⟨.hbm, 67, rfl⟩
abbrev main_c_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_v56 : Ref sig .tc := ⟨.hbm, 99, rfl⟩
abbrev main_cst_8 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_9 : Ref sig .tc := ⟨.hbm, 108, rfl⟩
abbrev main_v64 : Ref sig .tc := ⟨.hbm, 109, rfl⟩
abbrev main_v65 : Ref sig .tc := ⟨.hbm, 110, rfl⟩
abbrev main_cst_10 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_11 : Ref sig .tc := ⟨.hbm, 115, rfl⟩
abbrev main_v69 : Ref sig .tc := ⟨.hbm, 116, rfl⟩
abbrev main_cst_12 : Ref sig .tc := ⟨.hbm, 117, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S100000x32_S100000x16_0_0 : S100000x32.Slices ![0, 0] S100000x16
  slices_S100000x32_S100000x16_0_16 : S100000x32.Slices ![0, 16] S100000x16
  bcast_S_S100000x16 : S_.BroadcastsInDim S100000x16 (![] : Fin 0 → Fin S100000x16.rank)
  reducesTo_S100000x16_S100000_d1 : S100000x16.ReducesTo [1] S100000
  h_S_ : 0 < S_.numel
  bcast_S3200000x1_S3200000x16_0_1 : S3200000x1.BroadcastsInDim S3200000x16 (![0, 1] : Fin 2 → Fin S3200000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S100000x16_S100000x8_0_0 : S100000x16.Slices ![0, 0] S100000x8
  slices_S100000x16_S100000x8_0_8 : S100000x16.Slices ![0, 8] S100000x8
  bcast_S_S100000x8 : S_.BroadcastsInDim S100000x8 (![] : Fin 0 → Fin S100000x8.rank)
  reducesTo_S100000x8_S100000_d1 : S100000x8.ReducesTo [1] S100000
  dot_S100000x500_S500x32_S100000x32_1_0_0_1_n_n_wf : DotDims.WF S100000x500 S500x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x500_S500x32_S100000x32_1_0_0_1_n_n : DotDims S100000x500 S500x32 S100000x32 where
  lhsContracting := [1]
  rhsContracting := [0]
  lhsNonContracting := [0]
  rhsNonContracting := [1]
  lhsBatch := []
  rhsBatch := []
  wf := dot_S100000x500_S500x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.KRun.lean ====
/-
  The run of the idealized kernel's @main with its final memory NAMED.  @main is nine segments: a stretch of host
  operations, a launch of the first dense transform, a stretch (gather, weighting, scatter-add, bias), a launch of the
  first row-sum kernel, a reshape, a launch of the second dense transform, a second stretch of the same nineteen
  operations, a launch of the second row-sum kernel, and a last reshape and constant.  The contents of the
  TensorCore's buffers at the nine boundaries are a fold from the launch memory: after a stretch, the stretch's
  operations applied in order; after a launch, the launch's arrays at what its write-backs leave and every other buffer
  as it was.  Every weakly fair execution terminates, and every buffer that is not scoped to a launch ends at the
  last boundary's contents.  The frame keeps of this only the argument arrays; here the whole valuation is kept, so
  that each result buffer can be read off the fold.
-/
import proofs.«112306_j75986561401517_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core ends
    at the contents the fold through the nine segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core holds a ghost resource of its own
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      -- each segment is entered from the contents the one before it leaves; the last leaves the buffers at the ninth boundary
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- at launch every core holds its unscoped buffers at the launch memory
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      -- the buffers held at the last boundary's contents, read against a final state
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- A result buffer of @main after the run: the last boundary's contents at it. -/
theorem run_at (b : Ref sig .tc) (hb : ¬ (Proc.devRef .tc b : DevRef τ sig).isScoped)
    {r : PUnit × MemSt nD τ sig (Elt F)} (h : ∀ c : Dev nD, ∀ b ∈ Pipeline.ucRefs τ sig, r.2.mem (((c : Thread nD τ)).1, b) = W9 m ρ c b)
    (c : Dev nD) : r.2.mem ((c.tc : Thread nD τ).loc b) = W9 m ρ c (Proc.devRef .tc b) :=
  h c _ (mem_uc b hb)

end Cert.KernelIdeal.Whole

end
-- ==== Proof.Spec.lean ====
/-
  What the two programs compute, as functions of arrays over the extended reals, index by index.

  A layer of the network is: a dense transform of the node features (row i of the feature matrix against column j of
  the weights, a sum over the feature axis); a gather of the transformed rows along the edges, each weighted by its
  edge, scatter-added into the destination nodes; the bias added.  The gather, the weighting, the scatter-add and the
  bias are host operations in both programs and are not opened here.  What is stated here is the two parts the kernel
  computes in launches of its own:

  * the dense transform, over 500 features into 32, and over 32 into 16;
  * the divergence of a diagonal Gaussian from the standard one, node by node: the first half of a row holds the
    means, the second half the raw deviations; the deviation is softplus of the raw entry plus 1e-10, with
    softplus x = max(x, 0) + log(1 + exp(-|x|)); the summand is -log s + (s² + a² - 1)/2 at mean a and deviation s,
    summed over the half row.

  The float words (0, 1e-10, 1, 1/2) are kept as words: both programs carry the same ones, and only the zero word is
  ever evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `a` rows and `b` columns. -/
abbrev Mat (a b : ℕ) : Type := (⟨2, ![a, b]⟩ : Shape).Idx → EReal
/-- A vector of extended reals of length `a`. -/
abbrev Vect (a : ℕ) : Type := (⟨1, ![a]⟩ : Shape).Idx → EReal

/-! ## The dense transforms -/

/-- Entry (i, j) of the first layer's transform: row i of the features against column j of the weights. -/
def dense500 (x : Mat 100000 500) (w : Mat 500 32) : Mat 100000 32 :=
  fun i => ∑ k : Fin 500, x (ix2 (i 0) k) * w (ix2 k (i 1))

/-- Entry (i, j) of the second layer's transform. -/
def dense32 (x : Mat 100000 32) (w : Mat 32 16) : Mat 100000 16 :=
  fun i => ∑ k : Fin 32, x (ix2 (i 0) k) * w (ix2 k (i 1))

/-! ## The divergence summand -/

/-- The zero word. -/
abbrev wZero : EReal := Ideal.ofBits .f32 0x00000000#32
/-- The word of 1e-10. -/
abbrev wEps : EReal := Ideal.ofBits .f32 0x2EDBE6FF#32
/-- The word of 1. -/
abbrev wOne : EReal := Ideal.ofBits .f32 0x3F800000#32
/-- The word of 1/2. -/
abbrev wHalf : EReal := Ideal.ofBits .f32 0x3F000000#32

/-- The deviation from a raw entry `b`: softplus b + 1e-10, with softplus spelt as the two-argument log-add-exp of
    `b` and `0` — the larger of the two plus log(1 + exp(-|b - 0|)) — behind a guard on `b - 0` differing from itself,
    which selects `b + 0` instead and never fires on an extended real. -/
def deviation (b : EReal) : EReal :=
  Scalar.select (Ideal.cmp .une (b - wZero) (b - wZero)) (b + wZero)
      (max b wZero + Ideal.log1p (Ideal.exp (-(max (b - wZero) (-(b - wZero))))))
    + wEps

/-- The summand at mean `a` and raw deviation `b`: -log s + 1/2 · (s·s + a·a - 1) with s the deviation. -/
def klTerm (a b : EReal) : EReal :=
  -(Ideal.log (deviation b)) + wHalf * (deviation b * deviation b + a * a - wOne)

/-- The same summand as the kernel spells it: `0 - x` where the reference negates, and the guard by the ordered
    comparison. -/
def klTermK (a b : EReal) : EReal :=
  let s : EReal := Scalar.select (Ideal.cmp .one (b - wZero) (b - wZero)) (b + wZero)
      (max b wZero + Ideal.log1p (Ideal.exp (wZero - (max (b - wZero) (-(b - wZero)))))) + wEps
  (wZero - Ideal.log s) + wHalf * (s * s + a * a - wOne)

/-- Subtracting from the zero word is negation, on every extended real. -/
theorem wZero_sub (x : EReal) : wZero - x = -x := by
  show Ideal.ofBits .f32 0x00000000#32 - x = -x
  rw [Ideal.ofBits_zero_f32, sub_eq_add_neg, zero_add]

/-- The two spellings of the summand are one function. -/
theorem klTermK_eq (a b : EReal) : klTermK a b = klTerm a b := by
  unfold klTermK klTerm deviation
  simp only [wZero_sub]
  rfl

/-! ## The divergence, node by node -/

/-- The divergence of node i from a [100000, 32] layer output: 16 means, then 16 raw deviations. -/
def klRows32 (o : Mat 100000 32) : Vect 100000 :=
  fun i => wZero + ∑ k : Fin 16, klTerm (o (ix2 (i 0) ⟨k.val, by omega⟩)) (o (ix2 (i 0) ⟨k.val + 16, by omega⟩))

/-- The divergence of node i from a [100000, 16] layer output: 8 means, then 8 raw deviations. -/
def klRows16 (o : Mat 100000 16) : Vect 100000 :=
  fun i => wZero + ∑ k : Fin 8, klTerm (o (ix2 (i 0) ⟨k.val, by omega⟩)) (o (ix2 (i 0) ⟨k.val + 8, by omega⟩))

end Cert.Spec

end
-- ==== Proof.DensePayload.lean ====
/-
  The body of a dense-transform launch, read at an entry.  One grid point holds a block of 2000 rows of the left
  operand and the whole right operand; both pass through a narrower float format, which changes nothing on the
  extended reals, and are multiplied into a zero accumulator.  So the block's entry (r, c) is the sum over the
  contracted axis of row r of the left block against column c of the right operand.
-/
import proofs.«112306_j75986561401517_1_alg».proof.Proof.Gen.KernelIdeal.Skeleton
import proofs.«112306_j75986561401517_1_alg».proof.Proof.Spec
import Idealize.ShloMosaic.PureOps.Ideal.Laws
import Idealize.ShloMosaic.Lib.ValueIdx
import Idealize.ShloMosaic.Lib.Pipeline.Value

noncomputable section

namespace Cert.KernelIdeal.Dense

open Idealize.ShloMosaic Idealize.ShloMosaic.ValueIdx
open Cert.KernelIdeal Cert.KernelIdeal.Gen

/-! ## 500 features into 32 -/

/-- The left operand's row coordinate at an output entry is the entry's row. -/
theorem lhs500_0 (i : S2000x32.Idx) (q : dot_S2000x500_S500x32_S2000x32_1_0_0_1_n_n.contr.Idx) : (dot_S2000x500_S500x32_S2000x32_1_0_0_1_n_n.lhsIdx i q 0).val = (i 0).val := by
  unfold DotDims.lhsIdx
  rw [dif_neg (show ¬(0 : Fin S2000x500.rank) ∈ dot_S2000x500_S500x32_S2000x32_1_0_0_1_n_n.lhsBatch by decide),
    dif_pos (show (0 : Fin S2000x500.rank) ∈ dot_S2000x500_S500x32_S2000x32_1_0_0_1_n_n.lhsNonContracting by decide)]
  rfl
/-- The left operand's column coordinate is the contraction position. -/
theorem lhs500_1 (i : S2000x32.Idx) (q : dot_S2000x500_S500x32_S2000x32_1_0_0_1_n_n.contr.Idx) : (dot_S2000x500_S500x32_S2000x32_1_0_0_1_n_n.lhsIdx i q 1).val = (q ⟨0, by decide⟩).val :=
  dot_S2000x500_S500x32_S2000x32_1_0_0_1_n_n.lhsIdx_val_of_single rfl i q
/-- The right operand's row coordinate is the contraction position. -/
theorem rhs500_0 (i : S2000x32.Idx) (q : dot_S2000x500_S500x32_S2000x32_1_0_0_1_n_n.contr.Idx) : (dot_S2000x500_S500x32_S2000x32_1_0_0_1_n_n.rhsIdx i q 0).val = (q ⟨0, by decide⟩).val :=
  dot_S2000x500_S500x32_S2000x32_1_0_0_1_n_n.rhsIdx_val_of_single rfl i q
/-- The right operand's column coordinate at an output entry is the entry's column. -/
theorem rhs500_1 (i : S2000x32.Idx) (q : dot_S2000x500_S500x32_S2000x32_1_0_0_1_n_n.contr.Idx) : (dot_S2000x500_S500x32_S2000x32_1_0_0_1_n_n.rhsIdx i q 1).val = (i 1).val := by
  unfold DotDims.rhsIdx
  rw [dif_neg (show ¬(1 : Fin S500x32.rank) ∈ dot_S2000x500_S500x32_S2000x32_1_0_0_1_n_n.rhsBatch by decide),
    dif_pos (show (1 : Fin S500x32.rank) ∈ dot_S2000x500_S500x32_S2000x32_1_0_0_1_n_n.rhsNonContracting by decide)]
  rfl

/-- The left operand's index at output (r, c) and contraction position k is (r, k). -/
theorem lhs500 (r : Fin 2000) (c : Fin 32) (k : Fin 500) :
    dot_S2000x500_S500x32_S2000x32_1_0_0_1_n_n.lhsIdx (ix2 r c) ((contrEquiv1 dot_S2000x500_S500x32_S2000x32_1_0_0_1_n_n 500 rfl rfl).symm k) = ix2 r k := by
  have hk := contrEquiv1_symm_val dot_S2000x500_S500x32_S2000x32_1_0_0_1_n_n 500 rfl rfl k
  funext a; apply Fin.ext
  match a with
  | ⟨0, _⟩ => exact lhs500_0 _ _
  | ⟨1, _⟩ => exact (lhs500_1 _ _).trans hk

/-- The right operand's index at output (r, c) and contraction position k is (k, c). -/
theorem rhs500 (r : Fin 2000) (c : Fin 32) (k : Fin 500) :
    dot_S2000x500_S500x32_S2000x32_1_0_0_1_n_n.rhsIdx (ix2 r c) ((contrEquiv1 dot_S2000x500_S500x32_S2000x32_1_0_0_1_n_n 500 rfl rfl).symm k) = ix2 k c := by
  have hk := contrEquiv1_symm_val dot_S2000x500_S500x32_S2000x32_1_0_0_1_n_n 500 rfl rfl k
  funext a; apply Fin.ext
  match a with
  | ⟨0, _⟩ => exact (rhs500_0 _ _).trans hk
  | ⟨1, _⟩ => exact rhs500_1 _ _

/-- Entry (r, c) of what the first dense launch stores at a point: row r of its feature block against column c of the
    weights. -/
theorem pay500_apply (x0 : Vec Ideal S2000x500 .f32) (x1 : Vec Ideal S500x32 .f32) (r : Fin 2000) (c : Fin 32) :
    k0_pay1 (F := Ideal) x0 x1 (ix2 r c) = ∑ k : Fin 500, x0 (ix2 r k) * x1 (ix2 k c) := by
  unfold k0_pay1
  simp only [matmul]
  rw [Ideal.matmul_constant_zero_apply,
    ← Equiv.sum_comp (contrEquiv1 dot_S2000x500_S500x32_S2000x32_1_0_0_1_n_n 500 rfl rfl).symm]
  refine Finset.sum_congr rfl fun k _ => ?_
  rw [lhs500 r c k, rhs500 r c k]
  rfl

/-! ## 32 features into 16 -/

/-- The left operand's row coordinate at an output entry is the entry's row. -/
theorem lhs32_0 (i : S2000x16.Idx) (q : dot_S2000x32_S32x16_S2000x16_1_0_0_1_n_n.contr.Idx) : (dot_S2000x32_S32x16_S2000x16_1_0_0_1_n_n.lhsIdx i q 0).val = (i 0).val := by
  unfold DotDims.lhsIdx
  rw [dif_neg (show ¬(0 : Fin S2000x32.rank) ∈ dot_S2000x32_S32x16_S2000x16_1_0_0_1_n_n.lhsBatch by decide),
    dif_pos (show (0 : Fin S2000x32.rank) ∈ dot_S2000x32_S32x16_S2000x16_1_0_0_1_n_n.lhsNonContracting by decide)]
  rfl
/-- The left operand's column coordinate is the contraction position. -/
theorem lhs32_1 (i : S2000x16.Idx) (q : dot_S2000x32_S32x16_S2000x16_1_0_0_1_n_n.contr.Idx) : (dot_S2000x32_S32x16_S2000x16_1_0_0_1_n_n.lhsIdx i q 1).val = (q ⟨0, by decide⟩).val :=
  dot_S2000x32_S32x16_S2000x16_1_0_0_1_n_n.lhsIdx_val_of_single rfl i q
/-- The right operand's row coordinate is the contraction position. -/
theorem rhs32_0 (i : S2000x16.Idx) (q : dot_S2000x32_S32x16_S2000x16_1_0_0_1_n_n.contr.Idx) : (dot_S2000x32_S32x16_S2000x16_1_0_0_1_n_n.rhsIdx i q 0).val = (q ⟨0, by decide⟩).val :=
  dot_S2000x32_S32x16_S2000x16_1_0_0_1_n_n.rhsIdx_val_of_single rfl i q
/-- The right operand's column coordinate at an output entry is the entry's column. -/
theorem rhs32_1 (i : S2000x16.Idx) (q : dot_S2000x32_S32x16_S2000x16_1_0_0_1_n_n.contr.Idx) : (dot_S2000x32_S32x16_S2000x16_1_0_0_1_n_n.rhsIdx i q 1).val = (i 1).val := by
  unfold DotDims.rhsIdx
  rw [dif_neg (show ¬(1 : Fin S32x16.rank) ∈ dot_S2000x32_S32x16_S2000x16_1_0_0_1_n_n.rhsBatch by decide),
    dif_pos (show (1 : Fin S32x16.rank) ∈ dot_S2000x32_S32x16_S2000x16_1_0_0_1_n_n.rhsNonContracting by decide)]
  rfl

/-- The left operand's index at output (r, c) and contraction position k is (r, k). -/
theorem lhs32 (r : Fin 2000) (c : Fin 16) (k : Fin 32) :
    dot_S2000x32_S32x16_S2000x16_1_0_0_1_n_n.lhsIdx (ix2 r c) ((contrEquiv1 dot_S2000x32_S32x16_S2000x16_1_0_0_1_n_n 32 rfl rfl).symm k) = ix2 r k := by
  have hk := contrEquiv1_symm_val dot_S2000x32_S32x16_S2000x16_1_0_0_1_n_n 32 rfl rfl k
  funext a; apply Fin.ext
  match a with
  | ⟨0, _⟩ => exact lhs32_0 _ _
  | ⟨1, _⟩ => exact (lhs32_1 _ _).trans hk

/-- The right operand's index at output (r, c) and contraction position k is (k, c). -/
theorem rhs32 (r : Fin 2000) (c : Fin 16) (k : Fin 32) :
    dot_S2000x32_S32x16_S2000x16_1_0_0_1_n_n.rhsIdx (ix2 r c) ((contrEquiv1 dot_S2000x32_S32x16_S2000x16_1_0_0_1_n_n 32 rfl rfl).symm k) = ix2 k c := by
  have hk := contrEquiv1_symm_val dot_S2000x32_S32x16_S2000x16_1_0_0_1_n_n 32 rfl rfl k
  funext a; apply Fin.ext
  match a with
  | ⟨0, _⟩ => exact (rhs32_0 _ _).trans hk
  | ⟨1, _⟩ => exact rhs32_1 _ _

/-- Entry (r, c) of what the second dense launch stores at a point (its block first passes through a reshape onto
    its own shape, which is the identity). -/
theorem pay32_apply (x0 : Vec Ideal S2000x32 .f32) (x1 : Vec Ideal S32x16 .f32) (r : Fin 2000) (c : Fin 16) :
    k2_pay1 (F := Ideal) x0 x1 (ix2 r c) = ∑ k : Fin 32, x0 (ix2 r k) * x1 (ix2 k c) := by
  unfold k2_pay1
  simp only [matmul, shapeCast_self]
  rw [Ideal.matmul_constant_zero_apply,
    ← Equiv.sum_comp (contrEquiv1 dot_S2000x32_S32x16_S2000x16_1_0_0_1_n_n 32 rfl rfl).symm]
  refine Finset.sum_congr rfl fun k _ => ?_
  rw [lhs32 r c k, rhs32 r c k]
  rfl

end Cert.KernelIdeal.Dense

end
-- ==== Proof.DenseArray.lean ====
/-
  From blocks to the array, for the two dense-transform launches.  The launch is stated at ANY contents `V` of the
  TensorCore's buffers on entry.  Grid point t fetches rows 2000·t … 2000·t + 1999 of the left operand's array and the
  whole right operand, and writes back rows 2000·t … 2000·t + 1999 of the output array; the 50 points' row blocks
  tile the 100000 rows.  What point t writes back is its row block of ONE matrix — the dense transform of the two
  operand arrays as found on entry — so that matrix is what the output array holds when the launch is over.
-/
import proofs.«112306_j75986561401517_1_alg».proof.Proof.Gen.KernelIdeal.Frame
import proofs.«112306_j75986561401517_1_alg».proof.Proof.Spec
import proofs.«112306_j75986561401517_1_alg».proof.Proof.DensePayload
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The first dense launch: [100000, 500] × [500, 32] -/

/-- The block indices of the three windows at point t: the left operand and the output move with t along the rows; the
    right operand stays. -/
theorem idx_d1 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point t is rows 2000·t … of the left operand's array. -/
theorem lblk_d1 (c : Dev nD) (t : Fin cfg0.N) (x : S2000x500.Idx) (k : S100000x500.Idx)
    (hk0 : (k 0).val = 2000 * t.val + (x 0).val) (hk1 : (k 1).val = (x 1).val) :
    (iblk0 V c 0 t : Vec Ideal S2000x500 .f32) x = (V c main_arg0 : S100000x500.Idx → EReal) k := by
  obtain ⟨e0, e1, -⟩ := idx_d1 t
  unfold iblk0
  rw [View.read_apply]
  show V c main_arg0 _ = V c main_arg0 _
  refine congrArg (V c main_arg0) ?_
  funext a
  apply Fin.ext
  match a with
  | ⟨0, _⟩ => show win0_0.index t 0 * 2000 + 1 * (x 0).val = (k 0).val; rw [e0, hk0]; omega
  | ⟨1, _⟩ => show win0_0.index t 1 * 500 + 1 * (x 1).val = (k 1).val; rw [e1, hk1]; omega

/-- The right block at every point is the whole right operand's array. -/
theorem rblk_d1 (c : Dev nD) (t : Fin cfg0.N) (x : S500x32.Idx) :
    (iblk0 V c 1 t : Vec Ideal S500x32 .f32) x = (V c main_arg3 : S500x32.Idx → EReal) x := by
  obtain ⟨-, -, e2, e3, -⟩ := idx_d1 t
  unfold iblk0
  rw [View.read_apply]
  show V c main_arg3 _ = V c main_arg3 _
  refine congrArg (V c main_arg3) ?_
  funext a
  apply Fin.ext
  match a with
  | ⟨0, _⟩ => show win0_1.index t 0 * 500 + 1 * (x 0).val = (x 0).val; rw [e2]; omega
  | ⟨1, _⟩ => show win0_1.index t 1 * 32 + 1 * (x 1).val = (x 1).val; rw [e3]; omega

/-- At one point: a block of rows b·2000 … of `X` and the whole of `W` give, at the block's entry y, the dense
    transform of `X` and `W` at the array's entry in row b·2000 + y₀, column y₁. -/
theorem point_d1 (x0 : Vec Ideal S2000x500 .f32) (x1 : Vec Ideal S500x32 .f32) (X : Spec.Mat 100000 500) (W : Spec.Mat 500 32)
    (b : ℕ) (h0 : ∀ (x : S2000x500.Idx) (k : S100000x500.Idx), (k 0).val = 2000 * b + (x 0).val → (k 1).val = (x 1).val → x0 x = X k)
    (h1 : ∀ x : S500x32.Idx, x1 x = W x)
    (y : S2000x32.Idx) (i : S100000x32.Idx) (hi0 : (i 0).val = 2000 * b + (y 0).val) (hi1 : (i 1).val = (y 1).val) :
    k0_pay1 (F := Ideal) x0 x1 y = Spec.dense500 X W i := by
  obtain ⟨r, q, rfl⟩ : ∃ (r : Fin 2000) (q : Fin 32), y = ix2 r q := ⟨y 0, y 1, eq_ix2 y⟩
  rw [Dense.pay500_apply]
  unfold Spec.dense500
  refine Finset.sum_congr rfl fun k _ => ?_
  rw [h0 (ix2 r k) (ix2 (i 0) k) hi0 rfl, h1 (ix2 k q)]
  refine congrArg (X (ix2 (i 0) k) * W ·) ?_
  funext a
  apply Fin.ext
  match a with
  | ⟨0, _⟩ => rfl
  | ⟨1, _⟩ => exact hi1.symm

/-- What point t writes back is its row block of the dense transform of the two operand arrays as found on entry. -/
theorem flushed_d1 (c : Dev nD) (t : Fin cfg0.N) :
    (dat0 V c).flushed 2 t
      = ((cfg0.win 2).blk t).view.read (Elt Ideal) (Spec.dense500 (V c main_arg0) (V c main_arg3)) := by
  show (cfg0.win 2).cut (grid0.coords t) ((dat0 V c).after 2 t) = _
  rw [after0_2]
  unfold out0_2
  rw [View.canon_unit_zero hz]
  simp only [View.ld_unit_zero (S := S2000x500) hz, View.ld_unit_zero (S := S500x32) hz]
  obtain ⟨-, -, -, -, e4, e5⟩ := idx_d1 t
  funext j
  refine point_d1 (iblk0 V c 0 t) (iblk0 V c 1 t) (V c main_arg0) (V c main_arg3) t.val
    (fun x k hk0 hk1 => lblk_d1 V c t x k hk0 hk1) (fun x => rblk_d1 V c t x) j (((cfg0.win 2).blk t).view.emb j) ?_ ?_
  · show win0_2.index t 0 * 2000 + 1 * (j 0).val = 2000 * t.val + (j 0).val; rw [e4]; omega
  · show win0_2.index t 1 * 32 + 1 * (j 1).val = (j 1).val; rw [e5]; omega

/-- An entry of the output array is in point t's block iff each coordinate is in the block's range on its axis. -/
theorem mem_blk_d1 (t : Fin cfg0.N) (i : S100000x32.Idx) :
    i ∈ ((cfg0.win 2).blk t).view.set ↔ ∀ a : Fin 2, win0_2.index t a * S2000x32.size a ≤ (i a).val
      ∧ (i a).val < win0_2.index t a * S2000x32.size a + S2000x32.size a := by
  show i ∈ ((View.whole main_v4).slice (win0_2.rect t)).set ↔ _
  rw [View.set_slice_whole, Rect.mem_set_unit]
  exact Iff.rfl

/-- Every entry of the output array is in the block of the point its row falls to: row ÷ 2000. -/
theorem cover_d1 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  let t : Fin cfg0.N := ⟨(i 0).val / 2000, by rw [show cfg0.N = 50 from N_0]; omega⟩
  obtain ⟨-, -, -, -, e4, e5⟩ := idx_d1 t
  have ht : t.val = (i 0).val / 2000 := rfl
  refine ⟨t, flush0_2 t, ?_⟩
  rw [mem_blk_d1]
  intro a
  match a with
  | ⟨0, _⟩ =>
    show win0_2.index t 0 * 2000 ≤ (i 0).val ∧ (i 0).val < win0_2.index t 0 * 2000 + 2000
    rw [e4, ht]; omega
  | ⟨1, _⟩ =>
    show win0_2.index t 1 * 32 ≤ (i 1).val ∧ (i 1).val < win0_2.index t 1 * 32 + 32
    rw [e5]; omega

/-- THE OUTPUT ARRAY of the first dense launch, when it is over: the dense transform of its two operand arrays as
    found on entry. -/
theorem final_d1 (c : Dev nD) :
    (dat0 V c).arrAt 2 cfg0.N = Spec.dense500 (V c main_arg0) (V c main_arg3) :=
  (dat0 V c).arrAt_eq_of_cover 2 (Spec.dense500 (V c main_arg0) (V c main_arg3)) (fun t _ => flushed_d1 V c t) cover_d1

/-! ## The second dense launch: [100000, 32] × [32, 16] -/

/-- The block indices of the three windows at point t. -/
theorem idx_d2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left block at point t is rows 2000·t … of the left operand's array. -/
theorem lblk_d2 (c : Dev nD) (t : Fin cfg2.N) (x : S2000x32.Idx) (k : S100000x32.Idx)
    (hk0 : (k 0).val = 2000 * t.val + (x 0).val) (hk1 : (k 1).val = (x 1).val) :
    (iblk2 V c 0 t : Vec Ideal S2000x32 .f32) x = (V c main_v20 : S100000x32.Idx → EReal) k := by
  obtain ⟨e0, e1, -⟩ := idx_d2 t
  unfold iblk2
  rw [View.read_apply]
  show V c main_v20 _ = V c main_v20 _
  refine congrArg (V c main_v20) ?_
  funext a
  apply Fin.ext
  match a with
  | ⟨0, _⟩ => show win2_0.index t 0 * 2000 + 1 * (x 0).val = (k 0).val; rw [e0, hk0]; omega
  | ⟨1, _⟩ => show win2_0.index t 1 * 32 + 1 * (x 1).val = (k 1).val; rw [e1, hk1]; omega

/-- The right block at every point is the whole right operand's array. -/
theorem rblk_d2 (c : Dev nD) (t : Fin cfg2.N) (x : S32x16.Idx) :
    (iblk2 V c 1 t : Vec Ideal S32x16 .f32) x = (V c main_arg5 : S32x16.Idx → EReal) x := by
  obtain ⟨-, -, e2, e3, -⟩ := idx_d2 t
  unfold iblk2
  rw [View.read_apply]
  show V c main_arg5 _ = V c main_arg5 _
  refine congrArg (V c main_arg5) ?_
  funext a
  apply Fin.ext
  match a with
  | ⟨0, _⟩ => show win2_1.index t 0 * 32 + 1 * (x 0).val = (x 0).val; rw [e2]; omega
  | ⟨1, _⟩ => show win2_1.index t 1 * 16 + 1 * (x 1).val = (x 1).val; rw [e3]; omega

/-- At one point, as for the first launch. -/
theorem point_d2 (x0 : Vec Ideal S2000x32 .f32) (x1 : Vec Ideal S32x16 .f32) (X : Spec.Mat 100000 32) (W : Spec.Mat 32 16)
    (b : ℕ) (h0 : ∀ (x : S2000x32.Idx) (k : S100000x32.Idx), (k 0).val = 2000 * b + (x 0).val → (k 1).val = (x 1).val → x0 x = X k)
    (h1 : ∀ x : S32x16.Idx, x1 x = W x)
    (y : S2000x16.Idx) (i : S100000x16.Idx) (hi0 : (i 0).val = 2000 * b + (y 0).val) (hi1 : (i 1).val = (y 1).val) :
    k2_pay1 (F := Ideal) x0 x1 y = Spec.dense32 X W i := by
  obtain ⟨r, q, rfl⟩ : ∃ (r : Fin 2000) (q : Fin 16), y = ix2 r q := ⟨y 0, y 1, eq_ix2 y⟩
  rw [Dense.pay32_apply]
  unfold Spec.dense32
  refine Finset.sum_congr rfl fun k _ => ?_
  rw [h0 (ix2 r k) (ix2 (i 0) k) hi0 rfl, h1 (ix2 k q)]
  refine congrArg (X (ix2 (i 0) k) * W ·) ?_
  funext a
  apply Fin.ext
  match a with
  | ⟨0, _⟩ => rfl
  | ⟨1, _⟩ => exact hi1.symm

/-- What point t writes back is its row block of the dense transform of the two operand arrays as found on entry. -/
theorem flushed_d2 (c : Dev nD) (t : Fin cfg2.N) :
    (dat2 V c).flushed 2 t
      = ((cfg2.win 2).blk t).view.read (Elt Ideal) (Spec.dense32 (V c main_v20) (V c main_arg5)) := by
  show (cfg2.win 2).cut (grid2.coords t) ((dat2 V c).after 2 t) = _
  rw [after2_2]
  unfold out2_2
  rw [View.canon_unit_zero hz]
  simp only [View.ld_unit_zero (S := S2000x32) hz, View.ld_unit_zero (S := S32x16) hz]
  obtain ⟨-, -, -, -, e4, e5⟩ := idx_d2 t
  funext j
  refine point_d2 (iblk2 V c 0 t) (iblk2 V c 1 t) (V c main_v20) (V c main_arg5) t.val
    (fun x k hk0 hk1 => lblk_d2 V c t x k hk0 hk1) (fun x => rblk_d2 V c t x) j (((cfg2.win 2).blk t).view.emb j) ?_ ?_
  · show win2_2.index t 0 * 2000 + 1 * (j 0).val = 2000 * t.val + (j 0).val; rw [e4]; omega
  · show win2_2.index t 1 * 16 + 1 * (j 1).val = (j 1).val; rw [e5]; omega

/-- An entry of the output array is in point t's block iff each coordinate is in the block's range on its axis. -/
theorem mem_blk_d2 (t : Fin cfg2.N) (i : S100000x16.Idx) :
    i ∈ ((cfg2.win 2).blk t).view.set ↔ ∀ a : Fin 2, win2_2.index t a * S2000x16.size a ≤ (i a).val
      ∧ (i a).val < win2_2.index t a * S2000x16.size a + S2000x16.size a := by
  show i ∈ ((View.whole main_v23).slice (win2_2.rect t)).set ↔ _
  rw [View.set_slice_whole, Rect.mem_set_unit]
  exact Iff.rfl

/-- Every entry of the output array is in the block of the point its row falls to. -/
theorem cover_d2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  let t : Fin cfg2.N := ⟨(i 0).val / 2000, by rw [show cfg2.N = 50 from N_2]; omega⟩
  obtain ⟨-, -, -, -, e4, e5⟩ := idx_d2 t
  have ht : t.val = (i 0).val / 2000 := rfl
  refine ⟨t, flush2_2 t, ?_⟩
  rw [mem_blk_d2]
  intro a
  match a with
  | ⟨0, _⟩ =>
    show win2_2.index t 0 * 2000 ≤ (i 0).val ∧ (i 0).val < win2_2.index t 0 * 2000 + 2000
    rw [e4, ht]; omega
  | ⟨1, _⟩ =>
    show win2_2.index t 1 * 16 ≤ (i 1).val ∧ (i 1).val < win2_2.index t 1 * 16 + 16
    rw [e5]; omega

/-- THE OUTPUT ARRAY of the second dense launch, when it is over. -/
theorem final_d2 (c : Dev nD) :
    (dat2 V c).arrAt 2 cfg2.N = Spec.dense32 (V c main_v20) (V c main_arg5) :=
  (dat2 V c).arrAt_eq_of_cover 2 (Spec.dense32 (V c main_v20) (V c main_arg5)) (fun t _ => flushed_d2 V c t) cover_d2

end Cert.KernelIdeal.Arrays

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KlPayload.lean ====
/-
  The body of a divergence launch, read at a row.  One grid point holds a block of 2000 rows of a layer's output.
  The body splits each row into its first half (the means) and its second half (the raw deviations), computes the
  summand entry by entry, sums along the half row, and stores the sums as a column.  So the stored column's entry in
  row r is the sum over the half row of the summand at (mean, raw deviation) taken from row r of the block.
-/
import proofs.«112306_j75986561401517_1_alg».proof.Proof.Gen.KernelIdeal.Skeleton
import proofs.«112306_j75986561401517_1_alg».proof.Proof.Spec
import proofs.«112306_j75986561401517_1_alg».proof.Proof.LibKeepdims
import Idealize.ShloMosaic.PureOps.Ideal.Laws
import Idealize.ShloMosaic.Lib.ValueIdx
import Idealize.ShloMosaic.Lib.Pipeline.Value

noncomputable section

namespace Cert.KernelIdeal.Divergence

open Idealize.ShloMosaic Idealize.ShloMosaic.ValueIdx
open Cert.KernelIdeal Cert.KernelIdeal.Gen

/-! ## The one-argument pointwise operations read at an index -/

section Pointwise
variable {s : Shape} {φ : FTy}
theorem exp_apply (a : FVec Ideal s φ) (i : s.Idx) : exp a i = Ideal.exp (a i) := rfl
theorem log_apply (a : FVec Ideal s φ) (i : s.Idx) : log a i = Ideal.log (a i) := rfl
theorem log1p_apply (a : FVec Ideal s φ) (i : s.Idx) : log1p a i = Ideal.log1p (a i) := rfl
theorem absf_apply (a : FVec Ideal s φ) (i : s.Idx) : absf a i = max (a i) (-(a i)) := rfl
end Pointwise

/-! ## From a [2000, 32] block: 16 means, 16 raw deviations -/

/-- A lane sum along the half row of a [2000, 16] value, read at row r: the sum over the 16 columns. -/
theorem rowsum16 (src : FVec Ideal S2000x16 .f32) (r : Fin 2000) :
    multiReduction .add [1] S2000 src 0x00000000#32 reduces_S2000x16_S2000 (.inl rfl) rfl (ix1 r)
      = ∑ k : Fin 16, src (ix2 r k) :=
  (Ideal.multiReduction_add_single src _ reduces_S2000x16_S2000 (.inl rfl) rfl (ix1 r)).trans
    (Finset.sum_congr rfl fun k _ => congrArg src
      (funext fun a => Fin.ext (by match a with | ⟨0, _⟩ => rfl | ⟨1, _⟩ => rfl)))

/-- The first half of row r of the block, at column k: the block's entry (r, k). -/
theorem mean32 (x0 : Vec Ideal S2000x32 .f32) (r : Fin 2000) (k : Fin 16) :
    extractStridedSlice S2000x16 ![0, 0] (shapeCast S2000x32 x0 shapeCasts_S2000x32_S2000x32) slices_S2000x32_o0_0_S2000x16 (ix2 r k)
      = x0 (ix2 r ⟨k.val, by omega⟩) := by
  rw [shapeCast_self]
  exact extractStridedSlice_apply _ _ _ _ _ (fun a => match a with
    | ⟨0, _⟩ => by show r.val = 0 + r.val; omega
    | ⟨1, _⟩ => by show k.val = 0 + k.val; omega)

/-- The second half of row r of the block, at column k: the block's entry (r, k + 16). -/
theorem raw32 (x0 : Vec Ideal S2000x32 .f32) (r : Fin 2000) (k : Fin 16) :
    extractStridedSlice S2000x16 ![0, 16] (shapeCast S2000x32 x0 shapeCasts_S2000x32_S2000x32) slices_S2000x32_o0_16_S2000x16 (ix2 r k)
      = x0 (ix2 r ⟨k.val + 16, by omega⟩) := by
  rw [shapeCast_self]
  exact extractStridedSlice_apply _ _ _ _ _ (fun a => match a with
    | ⟨0, _⟩ => by show r.val = 0 + r.val; omega
    | ⟨1, _⟩ => by show k.val + 16 = 16 + k.val; omega)

/-- Row r of what the divergence launch stores at a point: the summand over the 16 (mean, raw deviation) pairs of
    row r of its block, summed.  The stored column is the lane sums re-shaped to a column; the lane sum's summand, entry
    by entry, is the kernel's spelling of the summand at the two slices' entries. -/
theorem pay32_apply (x0 : Vec Ideal S2000x32 .f32) (r : Fin 2000) (u : Fin 1) :
    k1_pay1 (F := Ideal) x0 (ix2 r u)
      = ∑ k : Fin 16, Spec.klTerm (x0 (ix2 r ⟨k.val, by omega⟩)) (x0 (ix2 r ⟨k.val + 16, by omega⟩)) := by
  unfold k1_pay1
  refine (Cert.LibKeepdims.shapeCast_a_a1_apply _ shapeCasts_S2000_S2000x1 r u).trans ?_
  refine (rowsum16 _ r).trans ?_
  refine Finset.sum_congr rfl fun k _ => ?_
  simp only [addf_apply, subf_apply, mulf_apply, maximumf_apply, select_apply, cmpf_apply, broadcast_apply,
    exp_apply, log_apply, log1p_apply, absf_apply, Ideal.ofBits_def, Ideal.cmpf_def]
  rw [← Spec.klTermK_eq]
  refine Eq.trans ?_ (congrArg₂ Spec.klTermK (mean32 x0 r k) (raw32 x0 r k))
  rfl

/-! ## From a [2000, 16] block: 8 means, 8 raw deviations -/

/-- A lane sum along the half row of a [2000, 8] value, read at row r: the sum over the 8 columns. -/
theorem rowsum8 (src : FVec Ideal S2000x8 .f32) (r : Fin 2000) :
    multiReduction .add [1] S2000 src 0x00000000#32 reduces_S2000x8_S2000 (.inl rfl) rfl (ix1 r)
      = ∑ k : Fin 8, src (ix2 r k) :=
  (Ideal.multiReduction_add_single src _ reduces_S2000x8_S2000 (.inl rfl) rfl (ix1 r)).trans
    (Finset.sum_congr rfl fun k _ => congrArg src
      (funext fun a => Fin.ext (by match a with | ⟨0, _⟩ => rfl | ⟨1, _⟩ => rfl)))

/-- The first half of row r of the block, at column k: the block's entry (r, k). -/
theorem mean16 (x0 : Vec Ideal S2000x16 .f32) (r : Fin 2000) (k : Fin 8) :
    extractStridedSlice S2000x8 ![0, 0] (shapeCast S2000x16 x0 shapeCasts_S2000x16_S2000x16) slices_S2000x16_o0_0_S2000x8 (ix2 r k)
      = x0 (ix2 r ⟨k.val, by omega⟩) := by
  rw [shapeCast_self]
  exact extractStridedSlice_apply _ _ _ _ _ (fun a => match a with
    | ⟨0, _⟩ => by show r.val = 0 + r.val; omega
    | ⟨1, _⟩ => by show k.val = 0 + k.val; omega)

/-- The second half of row r of the block, at column k: the block's entry (r, k + 8). -/
theorem raw16 (x0 : Vec Ideal S2000x16 .f32) (r : Fin 2000) (k : Fin 8) :
    extractStridedSlice S2000x8 ![0, 8] (shapeCast S2000x16 x0 shapeCasts_S2000x16_S2000x16) slices_S2000x16_o0_8_S2000x8 (ix2 r k)
      = x0 (ix2 r ⟨k.val + 8, by omega⟩) := by
  rw [shapeCast_self]
  exact extractStridedSlice_apply _ _ _ _ _ (fun a => match a with
    | ⟨0, _⟩ => by show r.val = 0 + r.val; omega
    | ⟨1, _⟩ => by show k.val + 8 = 8 + k.val; omega)

/-- Row r of what the divergence launch stores at a point: the summand over the 8 (mean, raw deviation) pairs of
    row r of its block, summed.  The stored column is the lane sums re-shaped to a column; the lane sum's summand, entry
    by entry, is the kernel's spelling of the summand at the two slices' entries. -/
theorem pay16_apply (x0 : Vec Ideal S2000x16 .f32) (r : Fin 2000) (u : Fin 1) :
    k3_pay1 (F := Ideal) x0 (ix2 r u)
      = ∑ k : Fin 8, Spec.klTerm (x0 (ix2 r ⟨k.val, by omega⟩)) (x0 (ix2 r ⟨k.val + 8, by omega⟩)) := by
  unfold k3_pay1
  refine (Cert.LibKeepdims.shapeCast_a_a1_apply _ shapeCasts_S2000_S2000x1 r u).trans ?_
  refine (rowsum8 _ r).trans ?_
  refine Finset.sum_congr rfl fun k _ => ?_
  simp only [addf_apply, subf_apply, mulf_apply, maximumf_apply, select_apply, cmpf_apply, broadcast_apply,
    exp_apply, log_apply, log1p_apply, absf_apply, Ideal.ofBits_def, Ideal.cmpf_def]
  rw [← Spec.klTermK_eq]
  refine Eq.trans ?_ (congrArg₂ Spec.klTermK (mean16 x0 r k) (raw16 x0 r k))
  rfl

end Cert.KernelIdeal.Divergence

end
-- ==== Proof.KlArray.lean ====
/-
  From blocks to the array, for the two divergence launches.  The launch is stated at ANY contents `V` of the
  TensorCore's buffers on entry.  Grid point t fetches rows 2000·t … 2000·t + 1999 of a layer's output and writes
  back rows 2000·t … 2000·t + 1999 of a one-column array; the 50 points' row blocks tile the 100000 rows.  What
  point t writes back is its row block of ONE column — node by node, the summand over the (mean, raw deviation)
  pairs of the node's row, summed — so that column is what the output array holds when the launch is over.
-/
import proofs.«112306_j75986561401517_1_alg».proof.Proof.Gen.KernelIdeal.Frame
import proofs.«112306_j75986561401517_1_alg».proof.Proof.Spec
import proofs.«112306_j75986561401517_1_alg».proof.Proof.KlPayload
import Idealize.ShloMosaic.Lib.Pipeline.Value
import Idealize.ShloMosaic.Lib.ValueIdx

set_option maxRecDepth 16384

noncomputable section

namespace Cert.KernelIdeal.Columns

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The column of row sums of the summand, from a [100000, 32] layer output (16 means, 16 raw deviations a row). -/
def klCol32 (o : Spec.Mat 100000 32) : Spec.Mat 100000 1 :=
  fun i => ∑ k : Fin 16, Spec.klTerm (o (ix2 (i 0) ⟨k.val, by omega⟩)) (o (ix2 (i 0) ⟨k.val + 16, by omega⟩))

/-- The column of row sums of the summand, from a [100000, 16] layer output (8 means, 8 raw deviations a row). -/
def klCol16 (o : Spec.Mat 100000 16) : Spec.Mat 100000 1 :=
  fun i => ∑ k : Fin 8, Spec.klTerm (o (ix2 (i 0) ⟨k.val, by omega⟩)) (o (ix2 (i 0) ⟨k.val + 8, by omega⟩))

/-! ## The first divergence launch: from the [100000, 32] output of layer one -/

/-- The block indices of the two windows at point t: both move with t along the rows. -/
theorem idx_k1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The input block at point t is rows 2000·t … of the layer's output. -/
theorem blk_k1 (c : Dev nD) (t : Fin cfg1.N) (x : S2000x32.Idx) (k : S100000x32.Idx)
    (hk0 : (k 0).val = 2000 * t.val + (x 0).val) (hk1 : (k 1).val = (x 1).val) :
    (iblk1 V c 0 t : Vec Ideal S2000x32 .f32) x = (V c main_v20 : S100000x32.Idx → EReal) k := by
  obtain ⟨e0, e1, -⟩ := idx_k1 t
  unfold iblk1
  rw [View.read_apply]
  show V c main_v20 _ = V c main_v20 _
  refine congrArg (V c main_v20) ?_
  funext a
  apply Fin.ext
  match a with
  | ⟨0, _⟩ => show win1_0.index t 0 * 2000 + 1 * (x 0).val = (k 0).val; rw [e0, hk0]; omega
  | ⟨1, _⟩ => show win1_0.index t 1 * 32 + 1 * (x 1).val = (k 1).val; rw [e1, hk1]; omega

/-- At one point: a block of rows b·2000 … of `X` gives, in row y₀ of the stored column, the column of `X` at node
    b·2000 + y₀. -/
theorem point_k1 (x0 : Vec Ideal S2000x32 .f32) (X : Spec.Mat 100000 32) (b : ℕ)
    (h0 : ∀ (x : S2000x32.Idx) (k : S100000x32.Idx), (k 0).val = 2000 * b + (x 0).val → (k 1).val = (x 1).val → x0 x = X k)
    (y : S2000x1.Idx) (i : S100000x1.Idx) (hi0 : (i 0).val = 2000 * b + (y 0).val) :
    k1_pay1 (F := Ideal) x0 y = klCol32 X i := by
  obtain ⟨r, u, rfl⟩ : ∃ (r : Fin 2000) (u : Fin 1), y = ix2 r u := ⟨y 0, y 1, eq_ix2 y⟩
  rw [Divergence.pay32_apply]
  unfold klCol32
  refine Finset.sum_congr rfl fun k _ => ?_
  rw [h0 (ix2 r ⟨k.val, by omega⟩) (ix2 (i 0) ⟨k.val, by omega⟩) hi0 rfl,
    h0 (ix2 r ⟨k.val + 16, by omega⟩) (ix2 (i 0) ⟨k.val + 16, by omega⟩) hi0 rfl]

/-- What point t writes back is its row block of the column of the layer's output as found on entry. -/
theorem flushed_k1 (c : Dev nD) (t : Fin cfg1.N) :
    (dat1 V c).flushed 1 t = ((cfg1.win 1).blk t).view.read (Elt Ideal) (klCol32 (V c main_v20)) := by
  show (cfg1.win 1).cut (grid1.coords t) ((dat1 V c).after 1 t) = _
  rw [after1_1]
  unfold out1_1
  rw [View.canon_unit_zero hz]
  simp only [View.ld_unit_zero (S := S2000x32) hz]
  obtain ⟨-, -, e2, e3⟩ := idx_k1 t
  funext j
  refine point_k1 (iblk1 V c 0 t) (V c main_v20) t.val
    (fun x k hk0 hk1 => blk_k1 V c t x k hk0 hk1) j (((cfg1.win 1).blk t).view.emb j) ?_
  show win1_1.index t 0 * 2000 + 1 * (j 0).val = 2000 * t.val + (j 0).val; rw [e2]; omega

/-- An entry of the output column is in point t's block iff each coordinate is in the block's range on its axis. -/
theorem mem_blk_k1 (t : Fin cfg1.N) (i : S100000x1.Idx) :
    i ∈ ((cfg1.win 1).blk t).view.set ↔ ∀ a : Fin 2, win1_1.index t a * S2000x1.size a ≤ (i a).val
      ∧ (i a).val < win1_1.index t a * S2000x1.size a + S2000x1.size a := by
  show i ∈ ((View.whole main_v21).slice (win1_1.rect t)).set ↔ _
  rw [View.set_slice_whole, Rect.mem_set_unit]
  exact Iff.rfl

/-- Every entry of the output column is in the block of the point its row falls to: row ÷ 2000. -/
theorem cover_k1 (i : S100000x1.Idx) :
    ∃ t : Fin cfg1.N, (cfg1.win 1).flush t = true ∧ i ∈ ((cfg1.win 1).blk t).view.set := by
  have hi0 : (i 0).val < 100000 := (i 0).isLt
  have hi1 : (i 1).val < 1 := (i 1).isLt
  let t : Fin cfg1.N := ⟨(i 0).val / 2000, by rw [show cfg1.N = 50 from N_1]; omega⟩
  obtain ⟨-, -, e2, e3⟩ := idx_k1 t
  have ht : t.val = (i 0).val / 2000 := rfl
  refine ⟨t, flush1_1 t, ?_⟩
  rw [mem_blk_k1]
  intro a
  match a with
  | ⟨0, _⟩ =>
    show win1_1.index t 0 * 2000 ≤ (i 0).val ∧ (i 0).val < win1_1.index t 0 * 2000 + 2000
    rw [e2, ht]; omega
  | ⟨1, _⟩ =>
    show win1_1.index t 1 * 1 ≤ (i 1).val ∧ (i 1).val < win1_1.index t 1 * 1 + 1
    rw [e3]; omega

/-- THE OUTPUT COLUMN of the first divergence launch, when it is over. -/
theorem final_k1 (c : Dev nD) : (dat1 V c).arrAt 1 cfg1.N = klCol32 (V c main_v20) :=
  (dat1 V c).arrAt_eq_of_cover 1 (klCol32 (V c main_v20)) (fun t _ => flushed_k1 V c t) cover_k1

/-! ## The second divergence launch: from the [100000, 16] output of layer two -/

/-- The block indices of the two windows at point t. -/
theorem idx_k2 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- The input block at point t is rows 2000·t … of the layer's output. -/
theorem blk_k2 (c : Dev nD) (t : Fin cfg3.N) (x : S2000x16.Idx) (k : S100000x16.Idx)
    (hk0 : (k 0).val = 2000 * t.val + (x 0).val) (hk1 : (k 1).val = (x 1).val) :
    (iblk3 V c 0 t : Vec Ideal S2000x16 .f32) x = (V c main_v39 : S100000x16.Idx → EReal) k := by
  obtain ⟨e0, e1, -⟩ := idx_k2 t
  unfold iblk3
  rw [View.read_apply]
  show V c main_v39 _ = V c main_v39 _
  refine congrArg (V c main_v39) ?_
  funext a
  apply Fin.ext
  match a with
  | ⟨0, _⟩ => show win3_0.index t 0 * 2000 + 1 * (x 0).val = (k 0).val; rw [e0, hk0]; omega
  | ⟨1, _⟩ => show win3_0.index t 1 * 16 + 1 * (x 1).val = (k 1).val; rw [e1, hk1]; omega

/-- At one point, as for the first launch. -/
theorem point_k2 (x0 : Vec Ideal S2000x16 .f32) (X : Spec.Mat 100000 16) (b : ℕ)
    (h0 : ∀ (x : S2000x16.Idx) (k : S100000x16.Idx), (k 0).val = 2000 * b + (x 0).val → (k 1).val = (x 1).val → x0 x = X k)
    (y : S2000x1.Idx) (i : S100000x1.Idx) (hi0 : (i 0).val = 2000 * b + (y 0).val) :
    k3_pay1 (F := Ideal) x0 y = klCol16 X i := by
  obtain ⟨r, u, rfl⟩ : ∃ (r : Fin 2000) (u : Fin 1), y = ix2 r u := ⟨y 0, y 1, eq_ix2 y⟩
  rw [Divergence.pay16_apply]
  unfold klCol16
  refine Finset.sum_congr rfl fun k _ => ?_
  rw [h0 (ix2 r ⟨k.val, by omega⟩) (ix2 (i 0) ⟨k.val, by omega⟩) hi0 rfl,
    h0 (ix2 r ⟨k.val + 8, by omega⟩) (ix2 (i 0) ⟨k.val + 8, by omega⟩) hi0 rfl]

/-- What point t writes back is its row block of the column of the layer's output as found on entry. -/
theorem flushed_k2 (c : Dev nD) (t : Fin cfg3.N) :
    (dat3 V c).flushed 1 t = ((cfg3.win 1).blk t).view.read (Elt Ideal) (klCol16 (V c main_v39)) := by
  show (cfg3.win 1).cut (grid3.coords t) ((dat3 V c).after 1 t) = _
  rw [after3_1]
  unfold out3_1
  rw [View.canon_unit_zero hz]
  simp only [View.ld_unit_zero (S := S2000x16) hz]
  obtain ⟨-, -, e2, e3⟩ := idx_k2 t
  funext j
  refine point_k2 (iblk3 V c 0 t) (V c main_v39) t.val
    (fun x k hk0 hk1 => blk_k2 V c t x k hk0 hk1) j (((cfg3.win 1).blk t).view.emb j) ?_
  show win3_1.index t 0 * 2000 + 1 * (j 0).val = 2000 * t.val + (j 0).val; rw [e2]; omega

/-- An entry of the output column is in point t's block iff each coordinate is in the block's range on its axis. -/
theorem mem_blk_k2 (t : Fin cfg3.N) (i : S100000x1.Idx) :
    i ∈ ((cfg3.win 1).blk t).view.set ↔ ∀ a : Fin 2, win3_1.index t a * S2000x1.size a ≤ (i a).val
      ∧ (i a).val < win3_1.index t a * S2000x1.size a + S2000x1.size a := by
  show i ∈ ((View.whole main_v40).slice (win3_1.rect t)).set ↔ _
  rw [View.set_slice_whole, Rect.mem_set_unit]
  exact Iff.rfl

/-- Every entry of the output column is in the block of the point its row falls to. -/
theorem cover_k2 (i : S100000x1.Idx) :
    ∃ t : Fin cfg3.N, (cfg3.win 1).flush t = true ∧ i ∈ ((cfg3.win 1).blk t).view.set := by
  have hi0 : (i 0).val < 100000 := (i 0).isLt
  have hi1 : (i 1).val < 1 := (i 1).isLt
  let t : Fin cfg3.N := ⟨(i 0).val / 2000, by rw [show cfg3.N = 50 from N_3]; omega⟩
  obtain ⟨-, -, e2, e3⟩ := idx_k2 t
  have ht : t.val = (i 0).val / 2000 := rfl
  refine ⟨t, flush3_1 t, ?_⟩
  rw [mem_blk_k2]
  intro a
  match a with
  | ⟨0, _⟩ =>
    show win3_1.index t 0 * 2000 ≤ (i 0).val ∧ (i 0).val < win3_1.index t 0 * 2000 + 2000
    rw [e2, ht]; omega
  | ⟨1, _⟩ =>
    show win3_1.index t 1 * 1 ≤ (i 1).val ∧ (i 1).val < win3_1.index t 1 * 1 + 1
    rw [e3]; omega

/-- THE OUTPUT COLUMN of the second divergence launch, when it is over. -/
theorem final_k2 (c : Dev nD) : (dat3 V c).arrAt 1 cfg3.N = klCol16 (V c main_v39) :=
  (dat3 V c).arrAt_eq_of_cover 1 (klCol16 (V c main_v39)) (fun t _ => flushed_k2 V c t) cover_k2

end Cert.KernelIdeal.Columns

end
-- ==== Proof.HostFold.lean ====
/-
  The contents of the buffers at each boundary of the idealized kernel's @main, as closed terms of the seven argument
  arrays.  With x the node features, e the edge array, w the edge weights, W₁ b₁ W₂ b₂ the two layers' parameters:

    src, dst = rows 0 and 1 of e                                   (first host stretch)
    h₁  = the dense transform of x and W₁                          (first launch)
    o₁  = the aggregation of h₁ along the edges, plus b₁           (second host stretch)
    z₁  = the divergence column of o₁, flattened                   (second launch, third host stretch)
    h₂  = the dense transform of o₁ and W₂                         (third launch)
    o₂  = the aggregation of h₂ along the edges, plus b₂           (fourth host stretch)
    z₂  = the divergence column of o₂, flattened                   (fourth launch, last host stretch)

  The aggregation (gather the rows at the source ids, a negative id counted from the end; weight each by its edge;
  scatter-add into the destination ids from zero; add the bias) is ONE function here, never opened: the reference
  applies the same operations.  A buffer a segment does not write keeps its contents across the segment, and a launch
  leaves its input arrays as it found them; so each live buffer is carried from where it is written to where it is read.
-/
import proofs.«112306_j75986561401517_1_alg».proof.Proof.Gen.KernelIdeal.Frame
import proofs.«112306_j75986561401517_1_alg».proof.Proof.Spec
import proofs.«112306_j75986561401517_1_alg».proof.Proof.DenseArray
import proofs.«112306_j75986561401517_1_alg».proof.Proof.KlArray
import Idealize.ShloMosaic.PureOps.Ideal
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat)
open Cert.KernelIdeal Cert.KernelIdeal.Gen

/-! ## The host chains, each as one function -/

/-- The source ids: row 0 of the edge array. -/
def srcIds (e : (⟨S2x3200000, .i32⟩ : BufTy).Contents (Elt Ideal)) : (⟨S3200000, .i32⟩ : BufTy).Contents (Elt Ideal) :=
  shapeCast _ (extractStridedSlice S1x3200000 ![0, 0] e slices_S2x3200000_S1x3200000_0_0) shapeCasts_S1x3200000_S3200000

/-- The destination ids: row 1 of the edge array. -/
def dstIds (e : (⟨S2x3200000, .i32⟩ : BufTy).Contents (Elt Ideal)) : (⟨S3200000, .i32⟩ : BufTy).Contents (Elt Ideal) :=
  shapeCast _ (extractStridedSlice S1x3200000 ![1, 0] e slices_S2x3200000_S1x3200000_1_0) shapeCasts_S1x3200000_S3200000

/-- The source ids as gather positions: a negative id has the number of nodes added; then a column. -/
def gatherIds (s : (⟨S3200000, .i32⟩ : BufTy).Contents (Elt Ideal)) : (⟨S3200000x1, .i32⟩ : BufTy).Contents (Elt Ideal) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- One layer's aggregation over 32 features: the rows of `h` at the source ids, each weighted by its edge,
    scatter-added from zero into the destination ids; the bias added to every row. -/
def agg32 (h : (⟨S100000x32, .f32⟩ : BufTy).Contents (Elt Ideal)) (s d : (⟨S3200000, .i32⟩ : BufTy).Contents (Elt Ideal))
    (w : (⟨S3200000, .f32⟩ : BufTy).Contents (Elt Ideal)) (b : (⟨S32, .f32⟩ : BufTy).Contents (Elt Ideal)) :
    (⟨S100000x32, .f32⟩ : BufTy).Contents (Elt Ideal) :=
  addf
    (Host.scatterAdd scatter_S100000x32_S3200000x1_S3200000x32_1_0_0_1
      (broadcastInDim S100000x32 ![] bcast_S_S100000x32 (constant (F := Ideal) S_ .f32 0x00000000#32))
      (broadcastInDim S3200000x1 ![0] bcast_S3200000_S3200000x1_0 d)
      (mulf (Host.gather gather_S100000x32_S3200000x1_S3200000x32_1_0_n_n_0_1_132 h (gatherIds s))
        (broadcastInDim S3200000x32 ![0, 1] bcast_S3200000x1_S3200000x32_0_1
          (broadcastInDim S3200000x1 ![0] bcast_S3200000_S3200000x1_0 w))))
    (broadcastInDim S100000x32 ![0, 1] bcast_S1x32_S100000x32_0_1 (broadcastInDim S1x32 ![1] bcast_S32_S1x32_1 b))

/-- The same over 16 features. -/
def agg16 (h : (⟨S100000x16, .f32⟩ : BufTy).Contents (Elt Ideal)) (s d : (⟨S3200000, .i32⟩ : BufTy).Contents (Elt Ideal))
    (w : (⟨S3200000, .f32⟩ : BufTy).Contents (Elt Ideal)) (b : (⟨S16, .f32⟩ : BufTy).Contents (Elt Ideal)) :
    (⟨S100000x16, .f32⟩ : BufTy).Contents (Elt Ideal) :=
  addf
    (Host.scatterAdd scatter_S100000x16_S3200000x1_S3200000x16_1_0_0_1
      (broadcastInDim S100000x16 ![] bcast_S_S100000x16 (constant (F := Ideal) S_ .f32 0x00000000#32))
      (broadcastInDim S3200000x1 ![0] bcast_S3200000_S3200000x1_0 d)
      (mulf (Host.gather gather_S100000x16_S3200000x1_S3200000x16_1_0_n_n_0_1_116 h (gatherIds s))
        (broadcastInDim S3200000x16 ![0, 1] bcast_S3200000x1_S3200000x16_0_1
          (broadcastInDim S3200000x1 ![0] bcast_S3200000_S3200000x1_0 w))))
    (broadcastInDim S100000x16 ![0, 1] bcast_S1x16_S100000x16_0_1 (broadcastInDim S1x16 ![1] bcast_S16_S1x16_1 b))

/-- A one-column array flattened to a vector. -/
def flat (x : (⟨S100000x1, .f32⟩ : BufTy).Contents (Elt Ideal)) : (⟨S100000, .f32⟩ : BufTy).Contents (Elt Ideal) :=
  shapeCast _ x shapeCasts_S100000x1_S100000

/-! ## The values, as functions of the seven arrays -/

/-- Layer one's output: the aggregation of the dense transform of the features and the first weights. -/
def layer1 (x0 : (⟨S100000x500, .f32⟩ : BufTy).Contents (Elt Ideal)) (x1 : (⟨S2x3200000, .i32⟩ : BufTy).Contents (Elt Ideal)) (x2 : (⟨S3200000, .f32⟩ : BufTy).Contents (Elt Ideal))
    (x3 : (⟨S500x32, .f32⟩ : BufTy).Contents (Elt Ideal)) (x4 : (⟨S32, .f32⟩ : BufTy).Contents (Elt Ideal)) : (⟨S100000x32, .f32⟩ : BufTy).Contents (Elt Ideal) :=
  agg32 (Spec.dense500 x0 x3) (srcIds x1) (dstIds x1) x2 x4
/-- Layer one's divergence, node by node. -/
def kl1v (x0 : (⟨S100000x500, .f32⟩ : BufTy).Contents (Elt Ideal)) (x1 : (⟨S2x3200000, .i32⟩ : BufTy).Contents (Elt Ideal)) (x2 : (⟨S3200000, .f32⟩ : BufTy).Contents (Elt Ideal))
    (x3 : (⟨S500x32, .f32⟩ : BufTy).Contents (Elt Ideal)) (x4 : (⟨S32, .f32⟩ : BufTy).Contents (Elt Ideal)) : (⟨S100000, .f32⟩ : BufTy).Contents (Elt Ideal) :=
  flat (Columns.klCol32 (layer1 x0 x1 x2 x3 x4))
/-- Layer two's output: the aggregation of the dense transform of layer one's output and the second weights. -/
def layer2 (x0 : (⟨S100000x500, .f32⟩ : BufTy).Contents (Elt Ideal)) (x1 : (⟨S2x3200000, .i32⟩ : BufTy).Contents (Elt Ideal)) (x2 : (⟨S3200000, .f32⟩ : BufTy).Contents (Elt Ideal))
    (x3 : (⟨S500x32, .f32⟩ : BufTy).Contents (Elt Ideal)) (x4 : (⟨S32, .f32⟩ : BufTy).Contents (Elt Ideal)) (x5 : (⟨S32x16, .f32⟩ : BufTy).Contents (Elt Ideal)) (x6 : (⟨S16, .f32⟩ : BufTy).Contents (Elt Ideal)) : (⟨S100000x16, .f32⟩ : BufTy).Contents (Elt Ideal) :=
  agg16 (Spec.dense32 (layer1 x0 x1 x2 x3 x4) x5) (srcIds x1) (dstIds x1) x2 x6
/-- Layer two's divergence, node by node. -/
def kl2v (x0 : (⟨S100000x500, .f32⟩ : BufTy).Contents (Elt Ideal)) (x1 : (⟨S2x3200000, .i32⟩ : BufTy).Contents (Elt Ideal)) (x2 : (⟨S3200000, .f32⟩ : BufTy).Contents (Elt Ideal))
    (x3 : (⟨S500x32, .f32⟩ : BufTy).Contents (Elt Ideal)) (x4 : (⟨S32, .f32⟩ : BufTy).Contents (Elt Ideal)) (x5 : (⟨S32x16, .f32⟩ : BufTy).Contents (Elt Ideal)) (x6 : (⟨S16, .f32⟩ : BufTy).Contents (Elt Ideal)) : (⟨S100000, .f32⟩ : BufTy).Contents (Elt Ideal) :=
  flat (Columns.klCol16 (layer2 x0 x1 x2 x3 x4 x5 x6))

variable (m : (ℓ : Loc nD τ sig) → Buf (Elt Ideal) ℓ) (ρ : Dev nD → PrngReg) (c : Dev nD)

/-- The argument arrays at launch. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)

/-- The four values at the launch memory's arguments. -/
abbrev out1 : (⟨S100000x32, .f32⟩ : BufTy).Contents (Elt Ideal) := layer1 (a0 m c) (a1 m c) (a2 m c) (a3 m c) (a4 m c)
abbrev kl1 : (⟨S100000, .f32⟩ : BufTy).Contents (Elt Ideal) := kl1v (a0 m c) (a1 m c) (a2 m c) (a3 m c) (a4 m c)
abbrev out2 : (⟨S100000x16, .f32⟩ : BufTy).Contents (Elt Ideal) := layer2 (a0 m c) (a1 m c) (a2 m c) (a3 m c) (a4 m c) (a5 m c) (a6 m c)
abbrev kl2 : (⟨S100000, .f32⟩ : BufTy).Contents (Elt Ideal) := kl2v (a0 m c) (a1 m c) (a2 m c) (a3 m c) (a4 m c) (a5 m c) (a6 m c)

/-! ## The boundaries, in order -/

/-- After the first host stretch: the ids are read off the edge array; the other arguments are as launched. -/
theorem at1 : W1 m ρ c (Proc.devRef .tc main_v1) = srcIds (a1 m c) ∧ W1 m ρ c (Proc.devRef .tc main_v3) = dstIds (a1 m c)
    ∧ W1 m ρ c (Proc.devRef .tc main_arg0) = a0 m c ∧ W1 m ρ c (Proc.devRef .tc main_arg2) = a2 m c
    ∧ W1 m ρ c (Proc.devRef .tc main_arg3) = a3 m c ∧ W1 m ρ c (Proc.devRef .tc main_arg4) = a4 m c
    ∧ W1 m ρ c (Proc.devRef .tc main_arg5) = a5 m c ∧ W1 m ρ c (Proc.devRef .tc main_arg6) = a6 m c := by
  refine ⟨?_, ?_, ?_, ?_, ?_, ?_, ?_, ?_⟩ <;>
    (show StableHlo.after hostOps0 (W0 m ρ c) (Proc.devRef .tc _) = _; after_results_simp <;> rfl)

/-- After the first launch: its output array holds the dense transform; it touches nothing else that is live. -/
theorem at2 : W2 m ρ c (Proc.devRef .tc main_v4) = Spec.dense500 (a0 m c) (a3 m c)
    ∧ W2 m ρ c (Proc.devRef .tc main_v1) = srcIds (a1 m c) ∧ W2 m ρ c (Proc.devRef .tc main_v3) = dstIds (a1 m c)
    ∧ W2 m ρ c (Proc.devRef .tc main_arg2) = a2 m c ∧ W2 m ρ c (Proc.devRef .tc main_arg4) = a4 m c
    ∧ W2 m ρ c (Proc.devRef .tc main_arg5) = a5 m c ∧ W2 m ρ c (Proc.devRef .tc main_arg6) = a6 m c := by
  obtain ⟨h1, h3, h0, h2, h3', h4, h5, h6⟩ := at1 m ρ c
  refine ⟨?_, ?_, ?_, ?_, ?_, ?_, ?_⟩
  · refine (W2_arr m ρ c 2).trans ((Arrays.final_d1 (V1 m ρ) c).trans ?_)
    show Spec.dense500 (W1 m ρ c (Proc.devRef .tc main_arg0)) (W1 m ρ c (Proc.devRef .tc main_arg3)) = _
    rw [h0, h3']
  · exact (W2_of_ne m ρ c main_v1 (by decide)).trans h1
  · exact (W2_of_ne m ρ c main_v3 (by decide)).trans h3
  · exact (W2_of_ne m ρ c main_arg2 (by decide)).trans h2
  · exact (W2_of_ne m ρ c main_arg4 (by decide)).trans h4
  · exact (W2_of_ne m ρ c main_arg5 (by decide)).trans h5
  · exact (W2_of_ne m ρ c main_arg6 (by decide)).trans h6

/-- After the second host stretch: layer one's output; the ids, the weights and the second layer's parameters carried. -/
theorem at3 : W3 m ρ c (Proc.devRef .tc main_v20) = out1 m c
    ∧ W3 m ρ c (Proc.devRef .tc main_v1) = srcIds (a1 m c) ∧ W3 m ρ c (Proc.devRef .tc main_v3) = dstIds (a1 m c)
    ∧ W3 m ρ c (Proc.devRef .tc main_arg2) = a2 m c ∧ W3 m ρ c (Proc.devRef .tc main_arg5) = a5 m c ∧ W3 m ρ c (Proc.devRef .tc main_arg6) = a6 m c := by
  obtain ⟨h4, h1, h3, h2, hb, h5, h6⟩ := at2 m ρ c
  refine ⟨?_, ?_, ?_, ?_, ?_, ?_⟩
  · show StableHlo.after hostOps1 (W2 m ρ c) (Proc.devRef .tc main_v20) = _
    after_results_simp
    rw [h4, h1, h3, h2, hb]
    rfl
  · show StableHlo.after hostOps1 (W2 m ρ c) (Proc.devRef .tc main_v1) = _; after_results_simp; exact h1
  · show StableHlo.after hostOps1 (W2 m ρ c) (Proc.devRef .tc main_v3) = _; after_results_simp; exact h3
  · show StableHlo.after hostOps1 (W2 m ρ c) (Proc.devRef .tc main_arg2) = _; after_results_simp; exact h2
  · show StableHlo.after hostOps1 (W2 m ρ c) (Proc.devRef .tc main_arg5) = _; after_results_simp; exact h5
  · show StableHlo.after hostOps1 (W2 m ρ c) (Proc.devRef .tc main_arg6) = _; after_results_simp; exact h6

/-- After the second launch: its output column holds the divergence column of layer one's output, which it leaves as
    it found it. -/
theorem at4 : W4 m ρ c (Proc.devRef .tc main_v21) = Columns.klCol32 (out1 m c) ∧ W4 m ρ c (Proc.devRef .tc main_v20) = out1 m c
    ∧ W4 m ρ c (Proc.devRef .tc main_v1) = srcIds (a1 m c) ∧ W4 m ρ c (Proc.devRef .tc main_v3) = dstIds (a1 m c)
    ∧ W4 m ρ c (Proc.devRef .tc main_arg2) = a2 m c ∧ W4 m ρ c (Proc.devRef .tc main_arg5) = a5 m c ∧ W4 m ρ c (Proc.devRef .tc main_arg6) = a6 m c := by
  obtain ⟨h20, h1, h3, h2, h5, h6⟩ := at3 m ρ c
  refine ⟨?_, ?_, ?_, ?_, ?_, ?_, ?_⟩
  · refine (W4_arr m ρ c 1).trans ((Columns.final_k1 (V3 m ρ) c).trans ?_)
    show Columns.klCol32 (W3 m ρ c (Proc.devRef .tc main_v20)) = _
    rw [h20]
  · exact ((W4_arr m ρ c 0).trans (((dat1 (V3 m ρ) c).arrAt_in 0 rfl _).trans (A_eq1 (V3 m ρ) c 0))).trans h20
  · exact (W4_of_ne m ρ c main_v1 (by decide)).trans h1
  · exact (W4_of_ne m ρ c main_v3 (by decide)).trans h3
  · exact (W4_of_ne m ρ c main_arg2 (by decide)).trans h2
  · exact (W4_of_ne m ρ c main_arg5 (by decide)).trans h5
  · exact (W4_of_ne m ρ c main_arg6 (by decide)).trans h6

/-- After the third host stretch: the divergence column flattened. -/
theorem at5 : W5 m ρ c (Proc.devRef .tc main_v22) = kl1 m c ∧ W5 m ρ c (Proc.devRef .tc main_v20) = out1 m c
    ∧ W5 m ρ c (Proc.devRef .tc main_v1) = srcIds (a1 m c) ∧ W5 m ρ c (Proc.devRef .tc main_v3) = dstIds (a1 m c)
    ∧ W5 m ρ c (Proc.devRef .tc main_arg2) = a2 m c ∧ W5 m ρ c (Proc.devRef .tc main_arg5) = a5 m c ∧ W5 m ρ c (Proc.devRef .tc main_arg6) = a6 m c := by
  obtain ⟨h21, h20, h1, h3, h2, h5, h6⟩ := at4 m ρ c
  refine ⟨?_, ?_, ?_, ?_, ?_, ?_, ?_⟩
  · show StableHlo.after hostOps2 (W4 m ρ c) (Proc.devRef .tc main_v22) = _
    after_results_simp
    rw [h21]
    rfl
  · show StableHlo.after hostOps2 (W4 m ρ c) (Proc.devRef .tc main_v20) = _; after_results_simp; exact h20
  · show StableHlo.after hostOps2 (W4 m ρ c) (Proc.devRef .tc main_v1) = _; after_results_simp; exact h1
  · show StableHlo.after hostOps2 (W4 m ρ c) (Proc.devRef .tc main_v3) = _; after_results_simp; exact h3
  · show StableHlo.after hostOps2 (W4 m ρ c) (Proc.devRef .tc main_arg2) = _; after_results_simp; exact h2
  · show StableHlo.after hostOps2 (W4 m ρ c) (Proc.devRef .tc main_arg5) = _; after_results_simp; exact h5
  · show StableHlo.after hostOps2 (W4 m ρ c) (Proc.devRef .tc main_arg6) = _; after_results_simp; exact h6

/-- After the third launch: its output array holds the dense transform of layer one's output and the second weights. -/
theorem at6 : W6 m ρ c (Proc.devRef .tc main_v23) = Spec.dense32 (out1 m c) (a5 m c) ∧ W6 m ρ c (Proc.devRef .tc main_v20) = out1 m c
    ∧ W6 m ρ c (Proc.devRef .tc main_v22) = kl1 m c
    ∧ W6 m ρ c (Proc.devRef .tc main_v1) = srcIds (a1 m c) ∧ W6 m ρ c (Proc.devRef .tc main_v3) = dstIds (a1 m c)
    ∧ W6 m ρ c (Proc.devRef .tc main_arg2) = a2 m c ∧ W6 m ρ c (Proc.devRef .tc main_arg6) = a6 m c := by
  obtain ⟨h22, h20, h1, h3, h2, h5, h6⟩ := at5 m ρ c
  refine ⟨?_, ?_, ?_, ?_, ?_, ?_, ?_⟩
  · refine (W6_arr m ρ c 2).trans ((Arrays.final_d2 (V5 m ρ) c).trans ?_)
    show Spec.dense32 (W5 m ρ c (Proc.devRef .tc main_v20)) (W5 m ρ c (Proc.devRef .tc main_arg5)) = _
    rw [h20, h5]
  · exact ((W6_arr m ρ c 0).trans (((dat2 (V5 m ρ) c).arrAt_in 0 rfl _).trans (A_eq2 (V5 m ρ) c 0))).trans h20
  · exact (W6_of_ne m ρ c main_v22 (by decide)).trans h22
  · exact (W6_of_ne m ρ c main_v1 (by decide)).trans h1
  · exact (W6_of_ne m ρ c main_v3 (by decide)).trans h3
  · exact (W6_of_ne m ρ c main_arg2 (by decide)).trans h2
  · exact (W6_of_ne m ρ c main_arg6 (by decide)).trans h6

/-- After the fourth host stretch: layer two's output. -/
theorem at7 : W7 m ρ c (Proc.devRef .tc main_v39) = out2 m c ∧ W7 m ρ c (Proc.devRef .tc main_v20) = out1 m c ∧ W7 m ρ c (Proc.devRef .tc main_v22) = kl1 m c := by
  obtain ⟨h23, h20, h22, h1, h3, h2, h6⟩ := at6 m ρ c
  refine ⟨?_, ?_, ?_⟩
  · show StableHlo.after hostOps3 (W6 m ρ c) (Proc.devRef .tc main_v39) = _
    after_results_simp
    rw [h23, h1, h3, h2, h6]
    rfl
  · show StableHlo.after hostOps3 (W6 m ρ c) (Proc.devRef .tc main_v20) = _; after_results_simp; exact h20
  · show StableHlo.after hostOps3 (W6 m ρ c) (Proc.devRef .tc main_v22) = _; after_results_simp; exact h22

/-- After the fourth launch: its output column holds the divergence column of layer two's output. -/
theorem at8 : W8 m ρ c (Proc.devRef .tc main_v40) = Columns.klCol16 (out2 m c) ∧ W8 m ρ c (Proc.devRef .tc main_v39) = out2 m c
    ∧ W8 m ρ c (Proc.devRef .tc main_v20) = out1 m c ∧ W8 m ρ c (Proc.devRef .tc main_v22) = kl1 m c := by
  obtain ⟨h39, h20, h22⟩ := at7 m ρ c
  refine ⟨?_, ?_, ?_, ?_⟩
  · refine (W8_arr m ρ c 1).trans ((Columns.final_k2 (V7 m ρ) c).trans ?_)
    show Columns.klCol16 (W7 m ρ c (Proc.devRef .tc main_v39)) = _
    rw [h39]
  · exact ((W8_arr m ρ c 0).trans (((dat3 (V7 m ρ) c).arrAt_in 0 rfl _).trans (A_eq3 (V7 m ρ) c 0))).trans h39
  · exact (W8_of_ne m ρ c main_v20 (by decide)).trans h20
  · exact (W8_of_ne m ρ c main_v22 (by decide)).trans h22

/-- At the return: the five results. -/
theorem at9 : W9 m ρ c (Proc.devRef .tc main_v39) = out2 m c ∧ W9 m ρ c (Proc.devRef .tc main_v20) = out1 m c ∧ W9 m ρ c (Proc.devRef .tc main_v22) = kl1 m c
    ∧ W9 m ρ c (Proc.devRef .tc main_v41) = kl2 m c ∧ W9 m ρ c (Proc.devRef .tc main_cst_4) = constant (F := Ideal) S_ .f32 0x00000000#32 := by
  obtain ⟨h40, h39, h20, h22⟩ := at8 m ρ c
  refine ⟨?_, ?_, ?_, ?_, ?_⟩
  · show StableHlo.after hostOps4 (W8 m ρ c) (Proc.devRef .tc main_v39) = _; after_results_simp; exact h39
  · show StableHlo.after hostOps4 (W8 m ρ c) (Proc.devRef .tc main_v20) = _; after_results_simp; exact h20
  · show StableHlo.after hostOps4 (W8 m ρ c) (Proc.devRef .tc main_v22) = _; after_results_simp; exact h22
  · show StableHlo.after hostOps4 (W8 m ρ c) (Proc.devRef .tc main_v41) = _
    after_results_simp
    rw [h40]
    rfl
  · show StableHlo.after hostOps4 (W8 m ρ c) (Proc.devRef .tc main_cst_4) = _; after_results_simp

end Cert.KernelIdeal.Fold

end
-- ==== Proof.LibFlatten.lean ====
/-
  A layout operation read at an index given by coordinates: a column `[a, 1]` flattened to a vector `[a]` (what taking
  column 0 of a one-column matrix, `x[:, 0]`, lowers to). For any extent and any element type. (The row form
  `[1, a] → [a]` is in the library's Lib/ValueLayout.lean; this is its transpose.)
-/
import Idealize.ShloMosaic.Lib.Pipeline.Value
import Idealize.ShloMosaic.Lib.ValueIdx

namespace Cert.LibFlatten

open Idealize.ShloMosaic Idealize.ShloMosaic.ValueIdx

variable {α : Type}

/-- A column `[a, 1]` flattened to `[a]` reads, at `i`, the column's entry in row `i`: both indices have row-major
    position `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibFlatten
-- ==== Proof.HostChain.lean ====
/-
  The reference's pointwise chain from a half row of means and a half row of raw deviations to the divergence
  summand, as ONE function of vectors of any shape, and its value at an index.  `lo` holds the means and `hi` the raw
  deviations; `Z`, `E`, `O`, `H` are the splats of 0, 1e-10, 1 and 1/2.  Entry by entry the chain is the summand
  `Spec.klTerm`: the host's negate, abs, exponential, log-plus-one and log are the same functions of an extended
  real as the names say.
-/
import Idealize.ShloMosaic.PureOps.Ideal
import Idealize.ShloMosaic.PureOps.Ideal.Laws
import Idealize.ShloMosaic.Lib.ValueIdx
import proofs.«112306_j75986561401517_1_alg».proof.Proof.Spec

noncomputable section

namespace Cert.HostChain

open Idealize.ShloMosaic Idealize.ShloMosaic.ValueIdx

variable {s : Shape}

/-! ## The host's one-argument operations read at an index -/

theorem hexp_apply {φ : FTy} (a : FVec Ideal s φ) (i : s.Idx) : Host.exp a i = Ideal.exp (a i) := rfl
theorem hlog_apply {φ : FTy} (a : FVec Ideal s φ) (i : s.Idx) : Host.log a i = Ideal.log (a i) := rfl
theorem hlog1p_apply {φ : FTy} (a : FVec Ideal s φ) (i : s.Idx) : Host.log1p a i = Ideal.log1p (a i) := rfl
theorem hneg_apply {φ : FTy} (a : FVec Ideal s φ) (i : s.Idx) : Host.negf a i = -(a i) := rfl
theorem habs_apply {φ : FTy} (a : FVec Ideal s φ) (i : s.Idx) : Host.absf a i = max (a i) (-(a i)) := rfl

/-! ## The chain -/

/-- The deviation vector: softplus of the raw deviations, spelt as log-add-exp against zero behind its never-firing
    guard, plus the splat of 1e-10. -/
def dev (hi Z E : FVec Ideal s .f32) : FVec Ideal s .f32 :=
  addf
    (select (cmpf .une (subf hi Z) (subf hi Z)) (addf hi Z)
      (addf (maximumf hi Z) (Host.log1p (Host.exp (Host.negf (Host.absf (subf hi Z)))))))
    E

/-- The summand vector: -log s + 1/2 · (s·s + a·a - 1), entry by entry. -/
def chain (lo hi Z E O H : FVec Ideal s .f32) : FVec Ideal s .f32 :=
  addf (Host.negf (Host.log (dev hi Z E)))
    (mulf H (subf (addf (mulf (dev hi Z E) (dev hi Z E)) (mulf lo lo)) O))

/-- The deviation vector at an index is the deviation of the raw entry there. -/
theorem dev_apply (hi Z E : FVec Ideal s .f32) (i : s.Idx) (hZ : Z i = Spec.wZero) (hE : E i = Spec.wEps) :
    dev hi Z E i = Spec.deviation (hi i) := by
  unfold dev Spec.deviation
  simp only [addf_apply, subf_apply, maximumf_apply, select_apply, cmpf_apply, hexp_apply, hlog1p_apply, hneg_apply,
    habs_apply, Ideal.cmpf_def, hZ, hE]

/-- The summand vector at an index is the summand at the mean and the raw deviation there. -/
theorem chain_apply (lo hi Z E O H : FVec Ideal s .f32) (i : s.Idx) (hZ : Z i = Spec.wZero) (hE : E i = Spec.wEps)
    (hO : O i = Spec.wOne) (hH : H i = Spec.wHalf) :
    chain lo hi Z E O H i = Spec.klTerm (lo i) (hi i) := by
  unfold chain Spec.klTerm
  simp only [addf_apply, subf_apply, mulf_apply, hlog_apply, hneg_apply, dev_apply hi Z E i hZ hE, hO, hH]

/-- The same with the chain written out, operation by operation, as a program spells it: the form that meets a
    program's own text without unfolding anything. -/
theorem chain_apply_spelt (lo hi Z E O H : FVec Ideal s .f32) (i : s.Idx) (hZ : Z i = Spec.wZero) (hE : E i = Spec.wEps)
    (hO : O i = Spec.wOne) (hH : H i = Spec.wHalf) :
    (addf (Host.negf (Host.log (addf (select (cmpf .une (subf hi Z) (subf hi Z)) (addf hi Z) (addf (maximumf hi Z) (Host.log1p (Host.exp (Host.negf (Host.absf (subf hi Z))))))) E)))
      (mulf H (subf (addf (mulf (addf (select (cmpf .une (subf hi Z) (subf hi Z)) (addf hi Z) (addf (maximumf hi Z) (Host.log1p (Host.exp (Host.negf (Host.absf (subf hi Z))))))) E)
        (addf (select (cmpf .une (subf hi Z) (subf hi Z)) (addf hi Z) (addf (maximumf hi Z) (Host.log1p (Host.exp (Host.negf (Host.absf (subf hi Z))))))) E)) (mulf lo lo)) O))) i = Spec.klTerm (lo i) (hi i) :=
  chain_apply lo hi Z E O H i hZ hE hO hH

end Cert.HostChain

end
-- ==== Proof.RefValue.lean ====
/-
  The reference's stages as the same closed terms.  Its two `dot_general`s are the dense transforms (the same sum
  over the contracted axis, entry by entry); its gather, weighting, scatter-add and bias are the aggregation chain,
  operation for operation; its divergence — slices, the pointwise chain, a sum over the half row from a zero initial
  value — is, node by node, the zero word plus the row sum of the summand, and the zero word is 0.  The pointwise chain
  is read over an OPAQUE layer output: nothing here ever opens a gather or a scatter-add.
-/
import proofs.«112306_j75986561401517_1_alg».proof.Proof.Gen.ReferenceIdeal.Read
import proofs.«112306_j75986561401517_1_alg».proof.Proof.Spec
import proofs.«112306_j75986561401517_1_alg».proof.Proof.HostFold
import proofs.«112306_j75986561401517_1_alg».proof.Proof.LibFlatten
import proofs.«112306_j75986561401517_1_alg».proof.Proof.HostChain
import Idealize.ShloMosaic.Lib.Pipeline.Value
import Idealize.ShloMosaic.PureOps.Ideal.Laws
import Idealize.ShloMosaic.Lib.ValueIdx

set_option maxRecDepth 16384

noncomputable section

namespace Cert.ReferenceIdeal.RefValue

open Idealize.ShloMosaic Idealize.ShloMosaic.ValueIdx
open Cert.ReferenceIdeal Cert.ReferenceIdeal.Gen Cert.ReferenceIdeal.Read

/-! ## The dense transforms -/

/-- The first `dot_general` is the dense transform of its operands. -/
theorem dense1 (x0 : (⟨S100000x500, .f32⟩ : BufTy).Contents (Elt Ideal)) (x3 : (⟨S500x32, .f32⟩ : BufTy).Contents (Elt Ideal)) :
    val_main_v4 (F := Ideal) x0 x3 = Spec.dense500 x0 x3 := by
  funext i
  rw [val_main_v4_apply]
  unfold Spec.dense500
  refine Finset.sum_congr rfl fun k _ => ?_
  have el : lidx_main_v4 i k = ix2 (i 0) k :=
    funext fun a => Fin.ext (by match a with | ⟨0, _⟩ => rfl | ⟨1, _⟩ => rfl)
  have er : ridx_main_v4 i k = ix2 k (i 1) :=
    funext fun a => Fin.ext (by match a with | ⟨0, _⟩ => rfl | ⟨1, _⟩ => rfl)
  rw [el, er]
  rfl

/-- The two programs' gather and scatter records are the same records: the same axes and slice sizes. -/
theorem gather32_eq : gather_S100000x32_S3200000x1_S3200000x32_1_0_n_n_0_1_132
    = Cert.KernelIdeal.gather_S100000x32_S3200000x1_S3200000x32_1_0_n_n_0_1_132 := rfl
theorem scatter32_eq : scatter_S100000x32_S3200000x1_S3200000x32_1_0_0_1
    = Cert.KernelIdeal.scatter_S100000x32_S3200000x1_S3200000x32_1_0_0_1 := rfl
theorem gather16_eq : gather_S100000x16_S3200000x1_S3200000x16_1_0_n_n_0_1_116
    = Cert.KernelIdeal.gather_S100000x16_S3200000x1_S3200000x16_1_0_n_n_0_1_116 := rfl
theorem scatter16_eq : scatter_S100000x16_S3200000x1_S3200000x16_1_0_0_1
    = Cert.KernelIdeal.scatter_S100000x16_S3200000x1_S3200000x16_1_0_0_1 := rfl

/-- Layer one's output in the reference: the aggregation of the dense transform.  Both sides are opened down to the
    same operations on the same operands; the records are rewritten, never the gather or the scatter-add opened. -/
theorem layer1 (x0 : (⟨S100000x500, .f32⟩ : BufTy).Contents (Elt Ideal)) (x1 : (⟨S2x3200000, .i32⟩ : BufTy).Contents (Elt Ideal)) (x2 : (⟨S3200000, .f32⟩ : BufTy).Contents (Elt Ideal)) (x3 : (⟨S500x32, .f32⟩ : BufTy).Contents (Elt Ideal)) (x4 : (⟨S32, .f32⟩ : BufTy).Contents (Elt Ideal)) :
    val_main_v20 (F := Ideal) x0 x1 x2 x3 x4 = Cert.KernelIdeal.Fold.layer1 x0 x1 x2 x3 x4 := by
  unfold Cert.KernelIdeal.Fold.layer1 Cert.KernelIdeal.Fold.agg32 Cert.KernelIdeal.Fold.gatherIds
    Cert.KernelIdeal.Fold.srcIds Cert.KernelIdeal.Fold.dstIds
  rw [← dense1]
  unfold val_main_v20 val_main_v19 val_main_v18 val_main_v17 val_main_v16 val_main_v15 val_main_cst val_main_v14 val_main_v13 val_main_v12 val_main_v11 val_main_v10 val_main_v9 val_main_v8 val_main_v7 val_main_c_0 val_main_v6 val_main_v5 val_main_c val_main_v3 val_main_v2 val_main_v1 val_main_v0
  rw [gather32_eq, scatter32_eq]

/-- The second `dot_general` is the dense transform of layer one's output and the second weights. -/
theorem dense2 (x0 : (⟨S100000x500, .f32⟩ : BufTy).Contents (Elt Ideal)) (x1 : (⟨S2x3200000, .i32⟩ : BufTy).Contents (Elt Ideal)) (x2 : (⟨S3200000, .f32⟩ : BufTy).Contents (Elt Ideal)) (x3 : (⟨S500x32, .f32⟩ : BufTy).Contents (Elt Ideal)) (x4 : (⟨S32, .f32⟩ : BufTy).Contents (Elt Ideal)) (x5 : (⟨S32x16, .f32⟩ : BufTy).Contents (Elt Ideal)) :
    val_main_v37 (F := Ideal) x0 x1 x2 x3 x4 x5 = Spec.dense32 (val_main_v20 (F := Ideal) x0 x1 x2 x3 x4) x5 := by
  funext i
  rw [val_main_v37_apply]
  unfold Spec.dense32
  refine Finset.sum_congr rfl fun k _ => ?_
  have el : lidx_main_v37 i k = ix2 (i 0) k :=
    funext fun a => Fin.ext (by match a with | ⟨0, _⟩ => rfl | ⟨1, _⟩ => rfl)
  have er : ridx_main_v37 i k = ix2 k (i 1) :=
    funext fun a => Fin.ext (by match a with | ⟨0, _⟩ => rfl | ⟨1, _⟩ => rfl)
  rw [el, er]
  rfl

/-- Layer two's output in the reference. -/
theorem layer2 (x0 : (⟨S100000x500, .f32⟩ : BufTy).Contents (Elt Ideal)) (x1 : (⟨S2x3200000, .i32⟩ : BufTy).Contents (Elt Ideal)) (x2 : (⟨S3200000, .f32⟩ : BufTy).Contents (Elt Ideal)) (x3 : (⟨S500x32, .f32⟩ : BufTy).Contents (Elt Ideal)) (x4 : (⟨S32, .f32⟩ : BufTy).Contents (Elt Ideal)) (x5 : (⟨S32x16, .f32⟩ : BufTy).Contents (Elt Ideal)) (x6 : (⟨S16, .f32⟩ : BufTy).Contents (Elt Ideal)) :
    val_main_v53 (F := Ideal) x0 x1 x2 x3 x4 x5 x6 = Cert.KernelIdeal.Fold.layer2 x0 x1 x2 x3 x4 x5 x6 := by
  unfold Cert.KernelIdeal.Fold.layer2 Cert.KernelIdeal.Fold.agg16 Cert.KernelIdeal.Fold.gatherIds
    Cert.KernelIdeal.Fold.srcIds Cert.KernelIdeal.Fold.dstIds
  rw [← layer1, ← dense2]
  unfold val_main_v53 val_main_v52 val_main_v51 val_main_v50 val_main_v49 val_main_v48 val_main_cst_7 val_main_v47 val_main_v46 val_main_v45 val_main_v44 val_main_v43 val_main_v42 val_main_v41 val_main_v40 val_main_c_6 val_main_v39 val_main_v38 val_main_c_5 val_main_v3 val_main_v2 val_main_v1 val_main_v0
  rw [gather16_eq, scatter16_eq]

/-! ## The divergences -/

/-- The first half of a row of a [100000, 32] array `o`: the slice's entry at j is `o` at (j₀, j₁). -/
theorem lo32 (o : (⟨S100000x32, .f32⟩ : BufTy).Contents (Elt Ideal)) (j : S100000x16.Idx) :
    extractStridedSlice S100000x16 ![0, 0] o slices_S100000x32_S100000x16_0_0 j = o (idx_main_v21 j) :=
  extractStridedSlice_apply ![0, 0] o slices_S100000x32_S100000x16_0_0 j (idx_main_v21 j) (fun a => match a with
    | ⟨0, _⟩ => by show (j 0).val = 0 + (j 0).val; omega
    | ⟨1, _⟩ => by show (j 1).val = 0 + (j 1).val; omega)

/-- The second half of a row: the slice's entry at j is `o` at (j₀, 16 + j₁). -/
theorem hi32 (o : (⟨S100000x32, .f32⟩ : BufTy).Contents (Elt Ideal)) (j : S100000x16.Idx) :
    extractStridedSlice S100000x16 ![0, 16] o slices_S100000x32_S100000x16_0_16 j = o (idx_main_v22 j) :=
  extractStridedSlice_apply ![0, 16] o slices_S100000x32_S100000x16_0_16 j (idx_main_v22 j) (fun a => match a with
    | ⟨0, _⟩ => by show (j 0).val = 0 + (j 0).val; omega
    | ⟨1, _⟩ => by show 16 + (j 1).val = 16 + (j 1).val; omega)

set_option maxHeartbeats 800000 in
/-- The layer's divergence in the reference, node by node: its stages are opened down to the layer's output, the output
    made an opaque array, the sum over the half row read, and each summand read by the chain's value at an index — the
    two half-row slices and the four splats first made opaque vectors, their values at the index kept as equations. -/
theorem kl1 (x0 : (⟨S100000x500, .f32⟩ : BufTy).Contents (Elt Ideal)) (x1 : (⟨S2x3200000, .i32⟩ : BufTy).Contents (Elt Ideal)) (x2 : (⟨S3200000, .f32⟩ : BufTy).Contents (Elt Ideal)) (x3 : (⟨S500x32, .f32⟩ : BufTy).Contents (Elt Ideal)) (x4 : (⟨S32, .f32⟩ : BufTy).Contents (Elt Ideal)) :
    val_main_v36 (F := Ideal) x0 x1 x2 x3 x4 = Cert.KernelIdeal.Fold.kl1v x0 x1 x2 x3 x4 := by
  unfold Cert.KernelIdeal.Fold.kl1v
  rw [← layer1]
  funext i
  obtain ⟨n, rfl⟩ : ∃ n : Fin 100000, i = ix1 n := ⟨i 0, eq_ix1 i⟩
  rw [val_main_v36_apply]
  unfold val_main_v35 val_main_v34 val_main_v33 val_main_cst_3 val_main_v32 val_main_v31 val_main_cst_2 val_main_v30 val_main_v29 val_main_v28 val_main_v27 val_main_v26 val_main_v25 val_main_v24 val_main_cst_1 val_main_v23 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_cst val_main_v22 val_main_v21
  generalize val_main_v20 (F := Ideal) x0 x1 x2 x3 x4 = o
  unfold Cert.KernelIdeal.Fold.flat
  refine Eq.trans ?_ (Cert.LibFlatten.shapeCast_a1_a_apply _ _ n).symm
  unfold Cert.KernelIdeal.Columns.klCol32
  rw [show (val_main_cst_4 (F := Ideal)) (Shape.Idx.first h_S_) = 0 from Ideal.ofBits_zero_f32, zero_add]
  refine Finset.sum_congr rfl fun k _ => ?_
  generalize hlo : extractStridedSlice S100000x16 ![0, 0] o slices_S100000x32_S100000x16_0_0 = lo
  generalize hhi : extractStridedSlice S100000x16 ![0, 16] o slices_S100000x32_S100000x16_0_16 = hi
  generalize hZ : broadcastInDim S100000x16 ![] bcast_S_S100000x16 (constant (F := Ideal) S_ .f32 0x00000000#32) = Z
  generalize hE : broadcastInDim S100000x16 ![] bcast_S_S100000x16 (constant (F := Ideal) S_ .f32 0x2EDBE6FF#32) = E
  generalize hO : broadcastInDim S100000x16 ![] bcast_S_S100000x16 (constant (F := Ideal) S_ .f32 0x3F800000#32) = O
  generalize hH : broadcastInDim S100000x16 ![] bcast_S_S100000x16 (constant (F := Ideal) S_ .f32 0x3F000000#32) = H
  refine (Cert.HostChain.chain_apply_spelt lo hi Z E O H (idx_main_v36 (ix1 n) k) ?_ ?_ ?_ ?_).trans ?_
  · rw [← hZ]; rfl
  · rw [← hE]; rfl
  · rw [← hO]; rfl
  · rw [← hH]; rfl
  rw [← hlo, ← hhi, lo32, hi32]
  refine congrArg₂ Spec.klTerm (congrArg o ?_) (congrArg o ?_)
  · funext a; apply Fin.ext
    match a with
    | ⟨0, _⟩ => rfl
    | ⟨1, _⟩ => rfl
  · funext a; apply Fin.ext
    match a with
    | ⟨0, _⟩ => rfl
    | ⟨1, _⟩ => show 16 + k.val = k.val + 16; omega

/-- The first half of a row of a [100000, 16] array `o`: the slice's entry at j is `o` at (j₀, j₁). -/
theorem lo16 (o : (⟨S100000x16, .f32⟩ : BufTy).Contents (Elt Ideal)) (j : S100000x8.Idx) :
    extractStridedSlice S100000x8 ![0, 0] o slices_S100000x16_S100000x8_0_0 j = o (idx_main_v54 j) :=
  extractStridedSlice_apply ![0, 0] o slices_S100000x16_S100000x8_0_0 j (idx_main_v54 j) (fun a => match a with
    | ⟨0, _⟩ => by show (j 0).val = 0 + (j 0).val; omega
    | ⟨1, _⟩ => by show (j 1).val = 0 + (j 1).val; omega)

/-- The second half of a row: the slice's entry at j is `o` at (j₀, 8 + j₁). -/
theorem hi16 (o : (⟨S100000x16, .f32⟩ : BufTy).Contents (Elt Ideal)) (j : S100000x8.Idx) :
    extractStridedSlice S100000x8 ![0, 8] o slices_S100000x16_S100000x8_0_8 j = o (idx_main_v55 j) :=
  extractStridedSlice_apply ![0, 8] o slices_S100000x16_S100000x8_0_8 j (idx_main_v55 j) (fun a => match a with
    | ⟨0, _⟩ => by show (j 0).val = 0 + (j 0).val; omega
    | ⟨1, _⟩ => by show 8 + (j 1).val = 8 + (j 1).val; omega)

set_option maxHeartbeats 800000 in
/-- The layer's divergence in the reference, node by node: its stages are opened down to the layer's output, the output
    made an opaque array, the sum over the half row read, and each summand read by the chain's value at an index — the
    two half-row slices and the four splats first made opaque vectors, their values at the index kept as equations. -/
theorem kl2 (x0 : (⟨S100000x500, .f32⟩ : BufTy).Contents (Elt Ideal)) (x1 : (⟨S2x3200000, .i32⟩ : BufTy).Contents (Elt Ideal)) (x2 : (⟨S3200000, .f32⟩ : BufTy).Contents (Elt Ideal)) (x3 : (⟨S500x32, .f32⟩ : BufTy).Contents (Elt Ideal)) (x4 : (⟨S32, .f32⟩ : BufTy).Contents (Elt Ideal)) (x5 : (⟨S32x16, .f32⟩ : BufTy).Contents (Elt Ideal)) (x6 : (⟨S16, .f32⟩ : BufTy).Contents (Elt Ideal)) :
    val_main_v69 (F := Ideal) x0 x1 x2 x3 x4 x5 x6 = Cert.KernelIdeal.Fold.kl2v x0 x1 x2 x3 x4 x5 x6 := by
  unfold Cert.KernelIdeal.Fold.kl2v
  rw [← layer2]
  funext i
  obtain ⟨n, rfl⟩ : ∃ n : Fin 100000, i = ix1 n := ⟨i 0, eq_ix1 i⟩
  rw [val_main_v69_apply]
  unfold val_main_v68 val_main_v67 val_main_v66 val_main_cst_10 val_main_v65 val_main_v64 val_main_cst_9 val_main_v63 val_main_v62 val_main_v61 val_main_v60 val_main_v59 val_main_v58 val_main_v57 val_main_cst_8 val_main_v56 val_main_call1_v11 val_main_call1_v10 val_main_call1_v9 val_main_call1_v8 val_main_call1_v7 val_main_call1_v6 val_main_call1_v5 val_main_call1_v4 val_main_call1_v3 val_main_call1_v2 val_main_call1_v1 val_main_call1_v0 val_main_call1_cst val_main_v55 val_main_v54
  generalize val_main_v53 (F := Ideal) x0 x1 x2 x3 x4 x5 x6 = o
  unfold Cert.KernelIdeal.Fold.flat
  refine Eq.trans ?_ (Cert.LibFlatten.shapeCast_a1_a_apply _ _ n).symm
  unfold Cert.KernelIdeal.Columns.klCol16
  rw [show (val_main_cst_11 (F := Ideal)) (Shape.Idx.first h_S_) = 0 from Ideal.ofBits_zero_f32, zero_add]
  refine Finset.sum_congr rfl fun k _ => ?_
  generalize hlo : extractStridedSlice S100000x8 ![0, 0] o slices_S100000x16_S100000x8_0_0 = lo
  generalize hhi : extractStridedSlice S100000x8 ![0, 8] o slices_S100000x16_S100000x8_0_8 = hi
  generalize hZ : broadcastInDim S100000x8 ![] bcast_S_S100000x8 (constant (F := Ideal) S_ .f32 0x00000000#32) = Z
  generalize hE : broadcastInDim S100000x8 ![] bcast_S_S100000x8 (constant (F := Ideal) S_ .f32 0x2EDBE6FF#32) = E
  generalize hO : broadcastInDim S100000x8 ![] bcast_S_S100000x8 (constant (F := Ideal) S_ .f32 0x3F800000#32) = O
  generalize hH : broadcastInDim S100000x8 ![] bcast_S_S100000x8 (constant (F := Ideal) S_ .f32 0x3F000000#32) = H
  refine (Cert.HostChain.chain_apply_spelt lo hi Z E O H (idx_main_v69 (ix1 n) k) ?_ ?_ ?_ ?_).trans ?_
  · rw [← hZ]; rfl
  · rw [← hE]; rfl
  · rw [← hO]; rfl
  · rw [← hH]; rfl
  rw [← hlo, ← hhi, lo16, hi16]
  refine congrArg₂ Spec.klTerm (congrArg o ?_) (congrArg o ?_)
  · funext a; apply Fin.ext
    match a with
    | ⟨0, _⟩ => rfl
    | ⟨1, _⟩ => rfl
  · funext a; apply Fin.ext
    match a with
    | ⟨0, _⟩ => rfl
    | ⟨1, _⟩ => show 8 + k.val = k.val + 8; omega

end Cert.ReferenceIdeal.RefValue

end
-- ==== Proof.lean ====
/-
  The five claims of this certificate.

  The kernel is a two-layer graph convolution with a divergence term per layer.  A layer is a dense transform of the
  node features, a gather of the transformed rows along the edges, each weighted by its edge and scatter-added into its
  destination node, and a bias.  The kernel computes the dense transform in a launch of its own, 2000 rows at a grid
  point, the operands passed through a narrower float format; the reference computes it as one product of the whole
  matrices.  On the extended reals a change of format is the identity and both are the same sum over the feature axis,
  entry by entry.  The gather, the weighting, the scatter-add and the bias are the same host operations in both
  programs, applied to equal arrays.  The divergence of a layer's output — softplus of the raw deviation plus 1e-10, then
  -log s + (s² + a² - 1)/2 summed over the half row — the kernel computes in a launch of its own, where the reference
  applies the same operations on the host; the two differ in spelling only (`0 - x` for `-x`, an ordered for an
  unordered comparison of a number with itself, a lane sum for a host sum from a zero initial value) and are one
  function on the extended reals.  No law used needs the inputs finite, so the precondition is never opened.

  The frames of the two kernel programs are the generated ones; the reference's frame is its generated run with the
  results dropped.  The kernel's idealization rewrote nothing, so `preserves` is `True`.
-/
import proofs.«112306_j75986561401517_1_alg».proof.Defs
import proofs.«112306_j75986561401517_1_alg».proof.Proof.Gen.Kernel
import proofs.«112306_j75986561401517_1_alg».proof.Proof.Gen.Kernel.Skeleton
import proofs.«112306_j75986561401517_1_alg».proof.Proof.Gen.Kernel.Launch
import proofs.«112306_j75986561401517_1_alg».proof.Proof.Gen.Kernel.Points
import proofs.«112306_j75986561401517_1_alg».proof.Proof.Gen.Kernel.Frame
import proofs.«112306_j75986561401517_1_alg».proof.Proof.Gen.KernelIdeal
import proofs.«112306_j75986561401517_1_alg».proof.Proof.Gen.KernelIdeal.Skeleton
import proofs.«112306_j75986561401517_1_alg».proof.Proof.Gen.KernelIdeal.Launch
import proofs.«112306_j75986561401517_1_alg».proof.Proof.Gen.KernelIdeal.Points
import proofs.«112306_j75986561401517_1_alg».proof.Proof.Gen.KernelIdeal.Frame
import proofs.«112306_j75986561401517_1_alg».proof.Proof.Gen.ReferenceIdeal
import proofs.«112306_j75986561401517_1_alg».proof.Proof.Gen.ReferenceIdeal.Run
import proofs.«112306_j75986561401517_1_alg».proof.Proof.Gen.ReferenceIdeal.Read
import proofs.«112306_j75986561401517_1_alg».proof.Proof.Gen.Pre_finite_inputs
import proofs.«112306_j75986561401517_1_alg».proof.Proof.KRun
import proofs.«112306_j75986561401517_1_alg».proof.Proof.HostFold
import proofs.«112306_j75986561401517_1_alg».proof.Proof.RefValue
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run, the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The idealization rewrote no operation. -/
theorem preserves : Cert.preserves_Kernel_KernelIdeal := trivial

open Cert.KernelIdeal in
/-- The idealized kernel's run with its five results named: the two layers' outputs, the two divergences, and zero. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
          r.2.mem ((c.tc : Thread nD τ).loc main_v39) = Fold.out2 m c
          ∧ r.2.mem ((c.tc : Thread nD τ).loc main_v20) = Fold.out1 m c
          ∧ r.2.mem ((c.tc : Thread nD τ).loc main_v22) = Fold.kl1 m c
          ∧ r.2.mem ((c.tc : Thread nD τ).loc main_v41) = Fold.kl2 m c
          ∧ r.2.mem ((c.tc : Thread nD τ).loc main_cst_4) = constant (F := Ideal) S_ .f32 0x00000000#32
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)) := by
  refine (θ_run Cert.KernelIdeal.defs _ _).mono (fun r h c => ?_) (Whole.run_all (F := Ideal) m ρ)
  obtain ⟨e39, e20, e22, e41, ec⟩ := Fold.at9 m ρ c
  exact ⟨(Whole.run_at m ρ main_v39 (by decide) h c).trans e39,
    (Whole.run_at m ρ main_v20 (by decide) h c).trans e20,
    (Whole.run_at m ρ main_v22 (by decide) h c).trans e22,
    (Whole.run_at m ρ main_v41 (by decide) h c).trans e41,
    (Whole.run_at m ρ main_cst_4 (by decide) h c).trans ec,
    (Whole.run_at m ρ main_arg0 (by decide) h c).trans (Gen.W9_main_arg0 m ρ c),
    (Whole.run_at m ρ main_arg1 (by decide) h c).trans (Gen.W9_main_arg1 m ρ c),
    (Whole.run_at m ρ main_arg2 (by decide) h c).trans (Gen.W9_main_arg2 m ρ c),
    (Whole.run_at m ρ main_arg3 (by decide) h c).trans (Gen.W9_main_arg3 m ρ c),
    (Whole.run_at m ρ main_arg4 (by decide) h c).trans (Gen.W9_main_arg4 m ρ c),
    (Whole.run_at m ρ main_arg5 (by decide) h c).trans (Gen.W9_main_arg5 m ρ c),
    (Whole.run_at m ρ main_arg6 (by decide) h c).trans (Gen.W9_main_arg6 m ρ c)⟩

/-- From memories agreeing on the arguments the two idealized programs end with equal results: each of the
    reference's stages is the value the kernel's fold gives, as a function of the seven arrays. -/
theorem algebraic : Cert.algebraic_KernelIdeal_ReferenceIdeal := by
  intro m ρ m' ρ' _ hagree
  refine ⟨fun c => Cert.KernelIdeal.Fold.out2 m c, fun c => Cert.KernelIdeal.Fold.out1 m c,
    fun c => Cert.KernelIdeal.Fold.kl1 m c, fun c => Cert.KernelIdeal.Fold.kl2 m c,
    fun _ => constant (F := Ideal) Cert.KernelIdeal.S_ .f32 0x00000000#32, kernel_run m ρ, ?_⟩
  refine (θ_run Cert.ReferenceIdeal.defs _ _).mono (fun r h c => ?_) (Cert.ReferenceIdeal.Value.run (F := Ideal) m' ρ')
  obtain ⟨g0, g1, g2, g3, g4, g5, g6⟩ := hagree c
  obtain ⟨r53, r20, r36, r69, rc, rargs⟩ := h c
  refine ⟨r53.trans ?_, r20.trans ?_, r36.trans ?_, r69.trans ?_, rc, rargs⟩
  · refine (Cert.ReferenceIdeal.Read.val_main_v53_eq _ _ _ _ _ _ _).trans ?_
    rw [Cert.ReferenceIdeal.RefValue.layer2, g0, g1, g2, g3, g4, g5, g6]
  · refine (Cert.ReferenceIdeal.Read.val_main_v20_eq _ _ _ _ _).trans ?_
    rw [Cert.ReferenceIdeal.RefValue.layer1, g0, g1, g2, g3, g4]
  · refine (Cert.ReferenceIdeal.Read.val_main_v36_eq m' c).trans ?_
    rw [Cert.ReferenceIdeal.RefValue.kl1, g0, g1, g2, g3, g4]
  · refine (Cert.ReferenceIdeal.Read.val_main_v69_eq m' c).trans ?_
    rw [Cert.ReferenceIdeal.RefValue.kl2, g0, g1, g2, g3, g4, g5, g6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
